-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S64x128 : Shape := ⟨2, ![64, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16384x16384 .f32) (main_arg1 : FVec F S64x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16384x16384 : Shape := ⟨2, ![16384, 16384]⟩
abbrev S64x128 : Shape := ⟨2, ![64, 128]⟩
abbrev S16384x1 : Shape := ⟨2, ![16384, 1]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S1x1 : Shape := ⟨2, ![1, 1]⟩
abbrev S64x1 : Shape := ⟨2, ![64, 1]⟩
abbrev S64 : Shape := ⟨1, ![64]⟩
abbrev S1x64 : Shape := ⟨2, ![1, 64]⟩
abbrev S16384x128 : Shape := ⟨2, ![16384, 128]⟩
abbrev S4096x1 : Shape := ⟨2, ![4096, 1]⟩
abbrev S4096x128 : Shape := ⟨2, ![4096, 128]⟩
abbrev S4096x64 : Shape := ⟨2, ![4096, 64]⟩
abbrev S4096 : Shape := ⟨1, ![4096]⟩

abbrev nBuf : Space → Nat
  | .hbm => 14
  | .vmem => 12
  | .smem => 0
  | _ => 0

abbrev bufTy : (tb : Table) → Fin (tcTables nBuf tb) → BufTy
  | .hbm, ⟨0, _⟩ => ⟨S16384x16384, .f32⟩
  | .hbm, ⟨1, _⟩ => ⟨S64x128, .f32⟩
  | .hbm, ⟨2, _⟩ => ⟨S16384x1, .f32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S64x1, .f32⟩
  | .hbm, ⟨11, _⟩ => ⟨S64, .f32⟩
  | .hbm, ⟨12, _⟩ => ⟨S1x64, .f32⟩
  | .hbm, ⟨13, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S4096x1, .f32⟩
  | .local _ .vmem, ⟨6, _⟩ => ⟨S4096x1, .f32⟩
  | .local _ .vmem, ⟨7, _⟩ => ⟨S1x64, .f32⟩
  | .local _ .vmem, ⟨8, _⟩ => ⟨S1x1, .f32⟩
  | .local _ .vmem, ⟨9, _⟩ => ⟨S64x128, .f32⟩
  | .local _ .vmem, ⟨10, _⟩ => ⟨S4096x128, .f32⟩
  | .local _ .vmem, ⟨11, _⟩ => ⟨S4096x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  reducesTo_S16384x1_S_d0_1 : S16384x1.ReducesTo [0, 1] S_
  h_S_ : 0 < S_.numel
  shapeCasts_S_S1x1 : S_.ShapeCasts S1x1
  slices_S16384x1_S64x1_0_0 : S16384x1.Slices ![0, 0] S64x1
  shapeCasts_S64x1_S64 : S64x1.ShapeCasts S64
  shapeCasts_S64_S1x64 : S64.ShapeCasts S1x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S4096x1_S4096x64 : S4096x1.Broadcasts S4096x64
  broadcasts_S1x64_S4096x64 : S1x64.Broadcasts S4096x64
  broadcasts_S1x1_S4096x64 : S1x1.Broadcasts S4096x64
  reduces_S4096x64_S4096 : S4096x64.Reduces [1] S4096
  shapeCasts_S4096_S4096x1 : S4096.ShapeCasts S4096x1
  inb_S64x128_S64x128_0_0 : ∀ a, (![0, 0] : Fin 2 → Nat) a + S64x128.size a ≤ S64x128.size a
  h_S64x128 : 0 < S64x128.numel
  inb_S4096x128_S4096x128_0_0 : ∀ a, (![0, 0] : Fin 2 → Nat) a + S4096x128.size a ≤ S4096x128.size a
  h_S4096x128 : 0 < S4096x128.numel
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S16384x1.size a
  hwx1_0 : ∀ i : grid1.Coords, EltTy.bits .f32 = 32 ∨ (Rect.block (s := S16384x1) S4096x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S16384x128.size a
  hwx1_4 : ∀ i : grid1.Coords, EltTy.bits .f32 = 32 ∨ (Rect.block (s := S16384x128) S4096x128.size (cc1_transform_4 i) (hinb1_4 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x16384 : Shape := ⟨2, ![16384, 16384]⟩
abbrev S64x128 : Shape := ⟨2, ![64, 128]⟩
abbrev S_ : Shape := ⟨0, ![]⟩
abbrev S16384 : Shape := ⟨1, ![16384]⟩
abbrev S16384x1 : Shape := ⟨2, ![16384, 1]⟩
abbrev S64x1 : Shape := ⟨2, ![64, 1]⟩
abbrev S64 : Shape := ⟨1, ![64]⟩
abbrev S1x64 : Shape := ⟨2, ![1, 64]⟩
abbrev S16384x64 : Shape := ⟨2, ![16384, 64]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S64x128, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x1, .f32⟩
  | .hbm, ⟨12, _⟩ => ⟨S64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S16384x64, .f32⟩
  | .hbm, ⟨32, _⟩ => ⟨S16384x64, .f32⟩
  | .hbm, ⟨33, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  reducesTo_S16384x1_S_d0_1 : S16384x1.ReducesTo [0, 1] S_
  slices_S16384x1_S64x1_0_0 : S16384x1.Slices ![0, 0] S64x1
  shapeCasts_S64x1_S64 : S64x1.ShapeCasts S64
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  bcast_S_S16384 : S_.BroadcastsInDim S16384 (![] : Fin 0 → Fin S16384.rank)
  dot_S16384x64_S64x128_S16384x128_1_0_0_1_n_n_wf : DotDims.WF S16384x64 S64x128 S16384x128 [1] [0] [0] [1] [] []

variable [Facts₀]

def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

class Facts : Prop extends Facts₀ where

variable [Facts]
-- ==== Proof.WordDegRuns.lean ====
/-
  The first kernel region (the row-sum kernel on an 8 × 8 grid of 2048 × 2048 blocks), from ANY contents `V` of the
  core's buffers at its entry, at any float instance.

  Grid point `t` is block-row `t / 8`, block-column `t % 8`. The body keeps a 2048 × 1 accumulator in a scratch
  buffer ACROSS points: in the first block-column it stores zeros into it; at every point it adds the block's row sums
  to it; in the last block-column it copies it to the output block. So there are three control cases — first column,
  a middle column, last column — and what the scratch holds after point `t` is a recursion on `t` (`accAfter`):
  the first-column case started afresh, the other two continued from what point `t - 1` left. The output window is
  stored (and written back) only in the last column; elsewhere it is idle.

  The region's invariant carries the scratch at `accAfter` of the point before (at anything before the first point).
-/
import proofs.«128045_j62612033241328_1_alg».proof.Proof.Gen.Kernel.Launch
import proofs.«128045_j62612033241328_1_alg».proof.Proof.Gen.Kernel.Skeleton
import proofs.«128045_j62612033241328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block of the matrix at a point -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's current staging buffer holds its block at every point (it is fetched at every point). -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The two branch conditions, over the grid -/

/-- "This is the first block-column": the body's first conditional, as the kernel computes it. -/
abbrev atFirstCol (i : grid0.Coords) : Prop :=
  (Scalar.cmpi .ne (Scalar.extui (Scalar.cmpi .eq (BitVec.ofNat 32 (i 1).val) 0#32)) 0#32) = 1#1
/-- It holds at the points ≡ 0 (mod 8). -/
theorem atFirstCol_iff : ∀ t : Fin cfg0.N, atFirstCol (grid0.coords t) ↔ t.val % 8 = 0 :=
  (by decide +kernel : ∀ t : Fin grid0.N, atFirstCol (grid0.coords t) ↔ t.val % 8 = 0)

/-- "This is the last block-column": the body's second conditional. -/
abbrev atLastCol (i : grid0.Coords) : Prop := k0_cond2 i = 1#1
/-- It holds at the points ≡ 7 (mod 8). -/
theorem atLastCol_iff : ∀ t : Fin cfg0.N, atLastCol (grid0.coords t) ↔ t.val % 8 = 7 :=
  (by decide +kernel : ∀ t : Fin grid0.N, atLastCol (grid0.coords t) ↔ t.val % 8 = 7)

/-- The matrix window is never idle; the output window is idle, and not written back, exactly off the last column. -/
theorem live0_0 : ∀ t : Fin cfg0.N, cfg0.idle 0 (grid0.coords t) = false := by decide +kernel
theorem idle0_1 : ∀ t : Fin cfg0.N, ¬atLastCol (grid0.coords t) → cfg0.idle 1 (grid0.coords t) = true := by decide +kernel
theorem noFlush0_1 : ∀ t : Fin cfg0.N, ¬atLastCol (grid0.coords t) → (cfg0.win 1).flush t = false := by decide +kernel
theorem live0_1 : ∀ t : Fin cfg0.N, atLastCol (grid0.coords t) → cfg0.idle 1 (grid0.coords t) = false := by decide +kernel

/-! ## The memrefs the body is called with -/

abbrev msIn (t : Fin cfg0.N) : Memref sig .tc .vmem S2048x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S2048x1 .f32 := win0_1.stage (cfg0.slots t 1)
abbrev hsOut (t : Fin cfg0.N) : (msOut t).IsWhole := hstage0_1 ((cfg0.slots t 1).cast nbuf0_1)
/-- The accumulator: the kernel's scratch operand, a whole scoped buffer of its own. -/
abbrev accM : Memref sig .tc .vmem S2048x1 .f32 := Memref.whole cc0_scratch0
abbrev accV : View sig .tc .vmem S2048x1 .f32 := accM.view
/-- One staging buffer of the output window, through which its contents are stated. -/
abbrev outV : View sig .tc .vmem S2048x1 .f32 := (Memref.whole cc0_stg1_0 : Memref sig .tc .vmem S2048x1 .f32).view

/-- The scoped buffers the region never touches (the other region's staging buffers), each whole at some contents. -/
def untouched (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant (every scoped buffer no window stages at some contents, the generator register at some state)
    with the accumulator split out as a memref owned at some contents. -/
theorem PhiA0_eq (c : Dev nD) :
    (Pipeline.ΦA spec0 c : sProp 𝕄)
      = iprop(iprop((∃ d, owns (c : Thread nD τ) accM fullShare d) ∗ untouched (F := F) c) ∗ (∃ r, prngReg c r)) := by
  unfold Pipeline.ΦA untouched; rw [scopedRest0_eq]; simp only [accM, owns_whole]; try rfl

/-! ## The body, case by case: the pieces each buffer ends with are found by running it -/

set_option maxHeartbeats 1000000 in
/-- FIRST COLUMN (and not the last): the accumulator, found at anything, ends with the pieces `LS` the run finds; the
    matrix block and the (idle) output buffer are handed back untouched. -/
noncomputable def degRunFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) :
    { LS : List (View.Piece (Elt F) S2048x1 .f32) //
      ∀ (xi : Vec F S2048x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, fun xi E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- A MIDDLE COLUMN: the accumulator, found at `xs` (what the point before left), ends with the pieces the run finds. -/
noncomputable def degRunMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) :
    { LS : List (View.Piece (Elt F) S2048x1 .f32) //
      ∀ (xi : Vec F S2048x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, fun xi E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- THE LAST COLUMN: the accumulator, found at `xs`, ends with the pieces `LS`, and the output buffer, found at
    anything, with the pieces `L1` (the copy of the accumulator). -/
noncomputable def degRunLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) :
    Σ' (L1 : List (View.Piece (Elt F) S2048x1 .f32)), { LS : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hF | exact hL)
    sl_step
    iapply Hk
    isplitl [H0]
    · iexists _; isplitr; · ipureintro; exact harg2.read_unread _
      iexact H0
    isplitl [H1]; · iexists _; iexact H1
    iexists _; iexact HS

end Cert.Kernel.Hand

end
-- ==== Proof.WordDegRegion.lean ====
/-
  The first kernel region, continued: what the accumulator and the output block hold after each grid point, the
  region's invariant, its proof data and the body obligation.

  After point `t` the accumulator holds (`accAfter`): in the first block-column, what the first-column case leaves
  of the block alone; in any other column, what that column's case leaves of the block and of what point `t - 1`
  left. The output block, stored only in the last column, is there the last-column case's copy of the accumulator.
  The invariant before point `t > 0` is the accumulator at what point `t - 1` left, beside the untouched scoped
  buffers and the generator register.
-/
import proofs.«128045_j62612033241328_1_alg».proof.Proof.Gen.Kernel.Launch
import proofs.«128045_j62612033241328_1_alg».proof.Proof.Gen.Kernel.Skeleton
import proofs.«128045_j62612033241328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.WordDegRuns
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-column case's pieces for the accumulator cover it. -/
theorem coverFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) (y : S2048x1.Idx) :
    ∃ pc ∈ (degRunFirst c i arg2 harg2 arg3 harg3 arg4 harg4 hF hL x0).1, y ∈ pc.1.set :=
  View.cover_of_tiledL (degRunFirst c i arg2 harg2 arg3 harg3 arg4 harg4 hF hL x0).1 S2048x1.size (by sl_kernel_rfl) y
/-- What the first-column case leaves in the accumulator. -/
def accFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) : Vec F S2048x1 .f32 :=
  accV.read (Elt F) (accV.writes (Elt F) accV.junk (degRunFirst c i arg2 harg2 arg3 harg3 arg4 harg4 hF hL x0).1)

theorem coverMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) (y : S2048x1.Idx) :
    ∃ pc ∈ (degRunMid c i arg2 harg2 arg3 harg3 arg4 harg4 hF hL x0 xs).1, y ∈ pc.1.set :=
  View.cover_of_tiledL (degRunMid c i arg2 harg2 arg3 harg3 arg4 harg4 hF hL x0 xs).1 S2048x1.size (by sl_kernel_rfl) y
/-- What a middle-column case leaves in the accumulator, from what it found there. -/
def accMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) : Vec F S2048x1 .f32 :=
  accV.read (Elt F) (accV.writes (Elt F) accV.junk (degRunMid c i arg2 harg2 arg3 harg3 arg4 harg4 hF hL x0 xs).1)

theorem coverLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) (y : S2048x1.Idx) :
    ∃ pc ∈ (degRunLast c i arg2 harg2 arg3 harg3 arg4 harg4 hF hL x0 xs).2.1, y ∈ pc.1.set :=
  View.cover_of_tiledL (degRunLast c i arg2 harg2 arg3 harg3 arg4 harg4 hF hL x0 xs).2.1 S2048x1.size (by sl_kernel_rfl) y
/-- What the last-column case leaves in the accumulator. -/
def accLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) : Vec F S2048x1 .f32 :=
  accV.read (Elt F) (accV.writes (Elt F) accV.junk (degRunLast c i arg2 harg2 arg3 harg3 arg4 harg4 hF hL x0 xs).2.1)

theorem coverOut (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) (y : S2048x1.Idx) :
    ∃ pc ∈ (degRunLast c i arg2 harg2 arg3 harg3 arg4 harg4 hF hL x0 xs).1, y ∈ pc.1.set :=
  View.cover_of_tiledL (degRunLast c i arg2 harg2 arg3 harg3 arg4 harg4 hF hL x0 xs).1 S2048x1.size (by sl_kernel_rfl) y
/-- What the last-column case leaves in the output block. -/
def outLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) : Vec F S2048x1 .f32 :=
  outV.read (Elt F) (outV.writes (Elt F) outV.junk (degRunLast c i arg2 harg2 arg3 harg3 arg4 harg4 hF hL x0 xs).1)

/-- A placeholder for the output block where it is idle: nothing consults it there. -/
def outIdle : Vec F S2048x1 .f32 := outV.read (Elt F) (outV.junk (Val := Elt F))

/-! ## The accumulation, point by point -/

/-- What the output block and the accumulator hold after the body at position `n`. -/
def leftAfter (c : Dev nD) : (n : ℕ) → n < cfg0.N → Vec F S2048x1 .f32 × Vec F S2048x1 .f32
  | 0, hn => (outIdle, accFirst c (grid0.coords ⟨0, hn⟩) (msIn ⟨0, hn⟩) (hsIn ⟨0, hn⟩) (msOut ⟨0, hn⟩) (hsOut ⟨0, hn⟩) accM (Memref.isWhole_whole _) ((atFirstCol_iff ⟨0, hn⟩).mpr (Nat.zero_mod _)) (fun h => (fun h => by (try dsimp only at h); omega) ((atLastCol_iff ⟨0, hn⟩).mp h)) (blk0 V c 0 ⟨0, hn⟩))
  | n + 1, hn =>
    if h0 : (n + 1) % 8 = 0 then
      if h7 : (n + 1) % 8 = 7 then False.elim (by omega)
      else (outIdle, accFirst c (grid0.coords ⟨n + 1, hn⟩) (msIn ⟨n + 1, hn⟩) (hsIn ⟨n + 1, hn⟩) (msOut ⟨n + 1, hn⟩) (hsOut ⟨n + 1, hn⟩) accM (Memref.isWhole_whole _) ((atFirstCol_iff ⟨n + 1, hn⟩).mpr h0) (fun h => h7 ((atLastCol_iff ⟨n + 1, hn⟩).mp h)) (blk0 V c 0 ⟨n + 1, hn⟩))
    else
      if h7 : (n + 1) % 8 = 7 then
        (outLast c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) ((atLastCol_iff ⟨n + 1, hn⟩).mpr h7) (blk0 V c 0 ⟨n + 1, hn⟩) (leftAfter c n (Nat.lt_of_succ_lt hn)).2,
         accLast c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) ((atLastCol_iff ⟨n + 1, hn⟩).mpr h7) (blk0 V c 0 ⟨n + 1, hn⟩) (leftAfter c n (Nat.lt_of_succ_lt hn)).2)
      else
        (outIdle, accMid c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) (fun h => h7 ((atLastCol_iff ⟨n + 1, hn⟩).mp h)) (blk0 V c 0 ⟨n + 1, hn⟩) (leftAfter c n (Nat.lt_of_succ_lt hn)).2)

/-- What point `t - 1` left in the accumulator. -/
abbrev accBefore (c : Dev nD) (t : Fin cfg0.N) : Vec F S2048x1 .f32 :=
  (leftAfter V c (t.val - 1) (Nat.lt_of_le_of_lt (Nat.sub_le _ _) t.isLt)).2

theorem leftAfter_first (c : Dev nD) (t : Fin cfg0.N) (h0 : t.val % 8 = 0) (h7 : ¬t.val % 8 = 7) :
    leftAfter V c t.val t.isLt = (outIdle, accFirst c (grid0.coords t) (msIn t) (hsIn t) (msOut t) (hsOut t) accM (Memref.isWhole_whole _) ((atFirstCol_iff t).mpr h0) (fun h => h7 ((atLastCol_iff t).mp h)) (blk0 V c 0 t)) := by
  obtain ⟨n, hn⟩ := t
  cases n with
  | zero => exact rfl
  | succ n => exact (dif_pos h0).trans ((dif_neg h7).trans rfl)

theorem leftAfter_mid (c : Dev nD) (t : Fin cfg0.N) (h0 : ¬t.val % 8 = 0) (h7 : ¬t.val % 8 = 7) :
    leftAfter V c t.val t.isLt = (outIdle, accMid c (grid0.coords t) (msIn t) (hsIn t) (msOut t) (hsOut t) accM (Memref.isWhole_whole _) (fun h => h0 ((atFirstCol_iff t).mp h)) (fun h => h7 ((atLastCol_iff t).mp h)) (blk0 V c 0 t) (accBefore V c t)) := by
  obtain ⟨n, hn⟩ := t
  cases n with
  | zero => exact (by exfalso; (try dsimp only at h0); exact absurd (Nat.zero_mod _) h0)
  | succ n => exact (dif_neg h0).trans ((dif_neg h7).trans rfl)

theorem leftAfter_last (c : Dev nD) (t : Fin cfg0.N) (h0 : ¬t.val % 8 = 0) (h7 : t.val % 8 = 7) :
    leftAfter V c t.val t.isLt = (outLast c (grid0.coords t) (msIn t) (hsIn t) (msOut t) (hsOut t) accM (Memref.isWhole_whole _) (fun h => h0 ((atFirstCol_iff t).mp h)) ((atLastCol_iff t).mpr h7) (blk0 V c 0 t) (accBefore V c t),
      accLast c (grid0.coords t) (msIn t) (hsIn t) (msOut t) (hsOut t) accM (Memref.isWhole_whole _) (fun h => h0 ((atFirstCol_iff t).mp h)) ((atLastCol_iff t).mpr h7) (blk0 V c 0 t) (accBefore V c t)) := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- Before position `n`: before the first point the class's invariant (the accumulator at anything); afterwards the
    accumulator at what the point before left, the untouched scoped buffers, the generator register at some state. -/
def PhiAcc (c : Dev nD) : (n : ℕ) → n ≤ cfg0.N → sProp 𝕄
  | 0, _ => Pipeline.ΦA spec0 c
  | n + 1, hn => iprop(iprop(owns (c : Thread nD τ) accM fullShare ((leftAfter V c n hn).2) ∗ untouched (F := F) c) ∗ (∃ r, prngReg c r))

theorem PhiAcc_zero (c : Dev nD) (n : ℕ) (h : n ≤ cfg0.N) (hz : n = 0) : PhiAcc V c n h = Pipeline.ΦA spec0 c := by
  subst hz; rfl

theorem PhiAcc_succ (c : Dev nD) (n : ℕ) (hn : n < cfg0.N) :
    PhiAcc V c (n + 1) hn = iprop(iprop(owns (c : Thread nD τ) accM fullShare ((leftAfter V c n hn).2) ∗ untouched (F := F) c) ∗ (∃ r, prngReg c r)) := rfl

theorem PhiAcc_pos (c : Dev nD) (n : ℕ) (h : n ≤ cfg0.N) (hz : n ≠ 0) :
    PhiAcc V c n h = iprop(iprop(owns (c : Thread nD τ) accM fullShare ((leftAfter V c (n - 1) (by omega)).2) ∗ untouched (F := F) c) ∗ (∃ r, prngReg c r)) := by
  cases n with
  | zero => exact absurd rfl hz
  | succ n => rfl

/-! ## The region's proof data -/

/-- The proof data of the region on core `c`: the arrays as the region finds them; after the body at point `t` the
    matrix window's buffer at its block and the output's at `leftAfter`'s first component; the invariant `PhiAcc`;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAfter V c t.val t.isLt).1
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiAcc V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = (leftAfter V c t.val t.isLt).1 := by dsimp only [dat0]

theorem found0_0 (c : Dev nD) (t : Fin cfg0.N) (d) : (dat0 V c).before 0 t d = blk0 V c 0 t :=
  found0_0_of V (dat0 V c) (A_eq0 V c 0) (after0_0 V c) t d

/-! ## The body obligation -/

def degPre (c : Dev nD) (t : Fin cfg0.N) : sProp 𝕄 :=
  iprop((dat0 V c).Φ t.castSucc ∗ (dat0 V c).owesAt () t.castSucc
    ∗ (∃ d, owns (c : Thread nD τ) (msIn t) fullShare ((dat0 V c).before 0 t d))
    ∗ (∃ d, owns (c : Thread nD τ) (msOut t) fullShare ((dat0 V c).before 1 t d)))

def degPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the matrix window's memref holds its block; the column of the point says which case it is
    in; the invariant hands the body the accumulator at what the point before left (at anything at the first point)
    and takes it back at this point's contents; the core owes nothing throughout. -/
theorem sound_deg_at (c : Dev nD) (t : Fin cfg0.N) :
    degPre V c t ⊢ wp frame (wpE (defs₀ (F := F)) Variants.none c none) Set.univ (bodyAt0 t) (fun _ => degPost V c t) := by
  unfold degPre degPost bodyAt0
  simp only [found0_0]
  rw [show (dat0 V c).owesAt () t.succ = (dat0 V c).owesAt () t.castSucc from rfl]
  rw [show (dat0 V c).Φ t.succ = PhiAcc V c (t.val + 1) t.isLt from rfl, PhiAcc_succ]
  have hN : t.val < 64 := lt_of_lt_of_eq t.isLt (show cfg0.N = 64 from N_0)
  rw [show (dat0 V c).leavesExact 0 t = owns (c : Thread nD τ) (msIn t) fullShare ((dat0 V c).after 0 t) from by
    unfold Dat.leavesExact; rw [live0_0 t], after0_0]
  by_cases h0 : t.val % 8 = 0
  · have h7 : ¬t.val % 8 = 7 := by omega
    rw [Dat.leavesExact_idle (dat0 V c) 1 t (idle0_1 t (fun h => h7 ((atLastCol_iff t).mp h))) (noFlush0_1 t (fun h => h7 ((atLastCol_iff t).mp h)))]
    rw [leftAfter_first V c t h0 h7]
    unfold accFirst; (try dsimp only)
    by_cases hz : t.val = 0
    · rw [Phi_castSucc V c t, PhiAcc_zero V c _ _ hz, PhiA0_eq]
      iintro ⟨⟨⟨HS, Hu⟩, Hg⟩, Ho, ⟨%d0, H0⟩, ⟨%d1, H1⟩⟩
      iapply ((degRunFirst c (grid0.coords t) (msIn t) (hsIn t) (msOut t) (hsOut t) accM (Memref.isWhole_whole _) ((atFirstCol_iff t).mpr h0) (fun h => h7 ((atLastCol_iff t).mp h)) (blk0 V c 0 t)).2 _ Set.univ _)
      isplitl [H0]; · iexact H0
      isplitl [H1]; · iexact H1
      isplitl [HS]; · iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverFirst _ _ _ _ _ _ _ _ _ _ _)
          iexact Hu
        iexact Hg
      isplitl [Ho]; · iexact Ho
      isplitl [H0]; · iexact H0
      iexists _; iexact H1
    · rw [Phi_castSucc V c t, PhiAcc_pos V c _ _ hz]
      iintro ⟨⟨⟨HS, Hu⟩, Hg⟩, Ho, ⟨%d0, H0⟩, ⟨%d1, H1⟩⟩
      iapply ((degRunFirst c (grid0.coords t) (msIn t) (hsIn t) (msOut t) (hsOut t) accM (Memref.isWhole_whole _) ((atFirstCol_iff t).mpr h0) (fun h => h7 ((atLastCol_iff t).mp h)) (blk0 V c 0 t)).2 _ Set.univ _)
      isplitl [H0]; · iexact H0
      isplitl [H1]; · iexact H1
      isplitl [HS]; · iexists _; iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverFirst _ _ _ _ _ _ _ _ _ _ _)
          iexact Hu
        iexact Hg
      isplitl [Ho]; · iexact Ho
      isplitl [H0]; · iexact H0
      iexists _; iexact H1
  · have hz : t.val ≠ 0 := fun e => h0 (by rw [e])
    by_cases h7 : t.val % 8 = 7
    · rw [show (dat0 V c).leavesExact 1 t = owns (c : Thread nD τ) (msOut t) fullShare ((dat0 V c).after 1 t) from by
        unfold Dat.leavesExact; rw [live0_1 t ((atLastCol_iff t).mpr h7)], after0_1]
      rw [leftAfter_last V c t h0 h7]
      unfold outLast accLast; (try dsimp only)
      rw [Phi_castSucc V c t, PhiAcc_pos V c _ _ hz]
      iintro ⟨⟨⟨HS, Hu⟩, Hg⟩, Ho, ⟨%d0, H0⟩, ⟨%d1, H1⟩⟩
      iapply ((degRunLast c (grid0.coords t) (msIn t) (hsIn t) (msOut t) (hsOut t) accM (Memref.isWhole_whole _) (fun h => h0 ((atFirstCol_iff t).mp h)) ((atLastCol_iff t).mpr h7) (blk0 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hu Hg]
      · isplitl [HS Hu]
        · isplitl [HS]
          · unfold owns; iexists _; isplitr
            swap; · iexact HS
            ipureintro; exact View.read_writes_of_cover _ _ _ _ _ (coverLast _ _ _ _ _ _ _ _ _ _ _ _)
          iexact Hu
        iexact Hg
      isplitl [Ho]; · iexact Ho
      isplitl [H0]; · iexact H0
      unfold owns; iexists _; isplitr
      swap; · iexact H1
      ipureintro; exact View.read_writes_of_cover _ _ _ _ _ (coverOut _ _ _ _ _ _ _ _ _ _ _ _)
    · rw [Dat.leavesExact_idle (dat0 V c) 1 t (idle0_1 t (fun h => h7 ((atLastCol_iff t).mp h))) (noFlush0_1 t (fun h => h7 ((atLastCol_iff t).mp h)))]
      rw [leftAfter_mid V c t h0 h7]
      unfold accMid; (try dsimp only)
      rw [Phi_castSucc V c t, PhiAcc_pos V c _ _ hz]
      iintro ⟨⟨⟨HS, Hu⟩, Hg⟩, Ho, ⟨%d0, H0⟩, ⟨%d1, H1⟩⟩
      iapply ((degRunMid c (grid0.coords t) (msIn t) (hsIn t) (msOut t) (hsOut t) accM (Memref.isWhole_whole _) (fun h => h0 ((atFirstCol_iff t).mp h)) (fun h => h7 ((atLastCol_iff t).mp h)) (blk0 V c 0 t) _).2 _ Set.univ _)
      isplitl [H0]; · iexact H0
      isplitl [H1]; · iexact H1
      isplitl [HS]; · iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverMid _ _ _ _ _ _ _ _ _ _ _ _)
          iexact Hu
        iexact Hg
      isplitl [Ho]; · iexact Ho
      isplitl [H0]; · iexact H0
      iexists _; iexact H1

/-- The library's body obligation, at every point. -/
theorem deg_obligation (c : Dev nD) : BodyObligation (dat0 (F := F) V c) (defs₀ (F := F)) Variants.none () Set.univ := fun t => by
  rw [bigSep_W0, bigSep_W0]
  exact sound_deg_at V c t

/-- What the launch hands the region is the invariant before the first point. -/
theorem deg_in (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the invariant gives the class's back: the accumulator's named contents are forgotten. -/
theorem deg_out (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiAcc V c (Fin.last cfg0.N).val (Nat.le_of_lt_succ (Fin.last cfg0.N).isLt) from rfl,
    PhiAcc_pos V c _ _ hne, PhiA0_eq]
  iintro ⟨⟨HS, Hu⟩, Hg⟩
  isplitl [HS Hu]
  · isplitl [HS]
    · iexists _; iexact HS
    iexact Hu
  iexact Hg

end Cert.Kernel.Hand

end
-- ==== Proof.WordMixRegion.lean ====
/-
  The second kernel region (the softmax-and-mix kernel, four grid points of 4096 rows each), from ANY contents `V` of
  the core's buffers at its entry, at any float instance.

  At grid point `t` the body is handed block `t` of the degree column (4096 × 1), and — whole, the same at every
  point — the anchors' degrees as a row (1 × 64), the scale (1 × 1) and the embeddings (64 × 128); it stores ONE value
  over its whole output block (4096 × 128): the body's arithmetic `k1_pay1` of the four blocks. So after the body the
  output's staging buffer holds that value (`mixedBlock`), the inputs' buffers are as found, and the region's
  invariant (the scoped buffers no window stages, the generator register) passes through untouched.
-/
import proofs.«128045_j62612033241328_1_alg».proof.Proof.Gen.Kernel.Launch
import proofs.«128045_j62612033241328_1_alg».proof.Proof.Gen.Kernel.Skeleton
import proofs.«128045_j62612033241328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched
    only at the first point keeps its block index, so the block in the buffer is still this point's): one lemma per
    input window, for ANY proof data whose array is the entry contents and whose body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output's buffer -/

/-- The whole-block rectangle of the output's staging buffer. -/
abbrev rOut1 : Rect S4096x128 := Rect.unit (s := S4096x128) ![0, 0] S4096x128.size inb_S4096x128_S4096x128_0_0
abbrev rIn1_0 : Rect S4096x1 := Rect.unit (s := S4096x1) ![0, 0] S4096x1.size inb_S4096x1_S4096x1_0_0
abbrev rIn1_1 : Rect S1x64 := Rect.unit (s := S1x64) ![0, 0] S1x64.size inb_S1x64_S1x64_0_0
abbrev rIn1_2 : Rect S1x1 := Rect.unit (s := S1x1) ![0, 0] S1x1.size inb_S1x1_S1x1_0_0
abbrev rIn1_3 : Rect S64x128 := Rect.unit (s := S64x128) ![0, 0] S64x128.size inb_S64x128_S64x128_0_0

/-- The output's staging buffer after the body, from the four input blocks: its one store, read back. -/
def mixedBlock (x0 : Vec F S4096x1 .f32) (x1 : Vec F S1x64 .f32) (x2 : Vec F S1x1 .f32) (x3 : Vec F S64x128 .f32) : Vec F S4096x128 .f32 :=
  View.canon [⟨rOut1, k1_pay1 (View.ld x0 rIn1_0) (View.ld x1 rIn1_1) (View.ld x2 rIn1_2) (View.ld x3 rIn1_3)⟩]

/-- The one store covers the buffer. -/
theorem mixed_cover (p0 : Vec F S4096x128 .f32) (y : S4096x128.Idx) :
    ∃ pc ∈ ([⟨rOut1, p0⟩] : List (View.Piece (Elt F) S4096x128 .f32)), y ∈ pc.1.set :=
  View.cover_of_tiled [⟨rOut1, p0⟩] S4096x128.size (by rfl) y

/-! ## The body's triple -/

set_option maxHeartbeats 1000000 in
/-- The body on whole staging memrefs, the inputs' at contents `x0 … x3` and the output's at anything, runs to the
    continuation holding the inputs' as they were and the output's at `mixedBlock` of them. -/
theorem sound_mix (c : Dev nD) (E : Set ℕ) (i : grid1.Coords)
    (arg1 : Memref sig .tc .vmem S4096x1 .f32) (harg1 : arg1.IsWhole) (arg2 : Memref sig .tc .vmem S1x64 .f32) (harg2 : arg2.IsWhole)
    (arg3 : Memref sig .tc .vmem S1x1 .f32) (harg3 : arg3.IsWhole) (arg4 : Memref sig .tc .vmem S64x128 .f32) (harg4 : arg4.IsWhole)
    (arg5 : Memref sig .tc .vmem S4096x128 .f32) (harg5 : arg5.IsWhole)
    (x0 : Vec F S4096x1 .f32) (x1 : Vec F S1x64 .f32) (x2 : Vec F S1x1 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (mixedBlock x0 x1 x2 x3)) -∗ K ⟨⟩))
      ⊢ wp frame (wpE (defs₀ (F := F)) Variants.none c none) E (cc1__aw_kernel i arg1 harg1 arg2 harg2 arg3 harg3 arg4 harg4 arg5 harg5) K := by
  simp only [cc1__aw_kernel_eq_skeleton]; unfold cc1__aw_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (mixed_cover _)

/-! ## The region's proof data -/

/-- The proof data of the region on core `c`: the arrays as the region finds them; after the body at point `t` each
    input's buffer at its block and the output's at `mixedBlock` of the four blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => mixedBlock (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = mixedBlock (blk1 V c 0 t) (blk1 V c 1 t) (blk1 V c 2 t) (blk1 V c 3 t) := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d
theorem found1_3 (c : Dev nD) (t : Fin cfg1.N) (d) : (dat1 V c).before 3 t d = blk1 V c 3 t :=
  found1_3_of V (dat1 V c) (A_eq1 V c 3) (after1_3 V c) t d

/-! ## The body obligation -/

/-- What the body is called with at point `t`, the windows one by one, -/
def mixPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def mixPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_mix` applies; the invariant and the
    core's dues pass through unread. -/
theorem sound_mix_at (c : Dev nD) (t : Fin cfg1.N) :
    mixPre V c t ⊢ wp frame (wpE (defs₀ (F := F)) Variants.none c none) Set.univ (bodyAt1 t) (fun _ => mixPost V c t) := by
  unfold mixPre mixPost bodyAt1
  simp only [found1_0, found1_1, found1_2, found1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_mix c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem mix_obligation (c : Dev nD) : BodyObligation (dat1 (F := F) V c) (defs₀ (F := F)) Variants.none () Set.univ := fun t => by
  rw [bigSep_W1, bigSep_W1]
  exact sound_mix_at V c t

end Cert.Kernel.Hand

end
-- ==== Proof.WordWhole.lean ====
/-
  The whole run of the kernel's program, at any float instance: the row-sum region, the host operations between the
  regions (the norm of the degree column; the scale; the first 64 degrees laid out as a row), the softmax-and-mix
  region.

  The buffers' contents at each boundary are a fold from the launch memory: after the first region its arrays are at
  what its write-backs leave; each host stretch applies its operations; after the second region its arrays are at
  what its write-backs leave. Each region is entered from "every unscoped buffer at the boundary's contents, the
  generator register at some state, nothing owed" and left at the same with the next contents. The run's post reads
  every unscoped buffer at the last contents (`whole_run`): the argument arrays walk back through the fold to the
  launch memory (no host operation and no region writes one), which is the frame claim (`frame`).
-/
import proofs.«128045_j62612033241328_1_alg».proof.Proof.Gen.Kernel.Launch
import proofs.«128045_j62612033241328_1_alg».proof.Proof.Gen.Kernel.Skeleton
import proofs.«128045_j62612033241328_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.Gen.Kernel.Regions
import proofs.«128045_j62612033241328_1_alg».proof.Proof.WordDegRegion
import proofs.«128045_j62612033241328_1_alg».proof.Proof.WordMixRegion
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev V0r : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the norm's four host operations. -/
abbrev W2 : Dev nD → Valuation τ sig (Elt F) := fun c => StableHlo.after hostOps1 (W1 m c)
/-- After the six host operations that make the scale and the anchors' row (the second region's entry). -/
abbrev W3 : Dev nD → Valuation τ sig (Elt F) := fun c => StableHlo.after hostOps1_1 (W2 m c)
abbrev V3r : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4r : (c : Dev nD) → (b : Ref sig .tc) → Buf (Elt F) ((c : Thread nD τ).loc b) := fun c b => W4 m c b
theorem hF1 (c : Dev nD) (w : Fin cfg1.W) : (dat1 (V3r m) c).arrAt w cfg1.N = V4r m c (Pipeline.arrRef spec1 w) :=
  (W4_arr m c w).symm
theorem hrest1 (c : Dev nD) : ∀ b, b ∉ Finset.univ.image (Pipeline.arrRef spec1) → V4r m c b = V3r m c b :=
  fun b hb => W4_of_ne m c b fun w e => hb (Finset.mem_image.mpr ⟨w, Finset.mem_univ _, e⟩)

/-- A buffer no operation of the norm's stretch writes is unchanged by it; likewise the second stretch. -/
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of m c main_arg0 (by decide)
    _ = W0 m c (Proc.devRef .tc main_arg0) := (W1_arr m c 0).trans (((dat0 (V0r m) c).arrAt_in 0 rfl _).trans (A_eq0 (V0r m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 3).trans (((dat1 (V3r m) c).arrAt_in 3 rfl _).trans (A_eq1 (V3r m) c 3))
    _ = W2 m c (Proc.devRef .tc main_arg1) := W3_of m c main_arg1 (by decide)
    _ = W1 m c (Proc.devRef .tc main_arg1) := W2_of m c main_arg1 (by decide)
    _ = W0 m c (Proc.devRef .tc main_arg1) := W1_of_ne m c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V3r m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (deg_obligation (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from deg_out (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mix_obligation (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]

set_option backward.isDefEq.respectTransparency.types false in
/-- THE RUN: from any memory with zero counters every weakly fair execution of @main terminates, nothing faulting,
    and every final state has every unscoped buffer at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (whole_run m ρ)

end Cert.Kernel.Hand

end
-- ==== Proof.DegRuns.lean ====
/-
  The first kernel region (the row-sum kernel on an 8 × 8 grid of 2048 × 2048 blocks), from ANY contents `V` of the
  core's buffers at its entry, at any float instance.

  Grid point `t` is block-row `t / 8`, block-column `t % 8`. The body keeps a 2048 × 1 accumulator in a scratch
  buffer ACROSS points: in the first block-column it stores zeros into it; at every point it adds the block's row sums
  to it; in the last block-column it copies it to the output block. So there are three control cases — first column,
  a middle column, last column — and what the scratch holds after point `t` is a recursion on `t` (`accAfter`):
  the first-column case started afresh, the other two continued from what point `t - 1` left. The output window is
  stored (and written back) only in the last column; elsewhere it is idle.

  The region's invariant carries the scratch at `accAfter` of the point before (at anything before the first point).
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block of the matrix at a point -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's current staging buffer holds its block at every point (it is fetched at every point). -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## The two branch conditions, over the grid -/

/-- "This is the first block-column": the body's first conditional, as the kernel computes it. -/
abbrev atFirstCol (i : grid0.Coords) : Prop :=
  (Scalar.cmpi .ne (Scalar.extui (Scalar.cmpi .eq (BitVec.ofNat 32 (i 1).val) 0#32)) 0#32) = 1#1
/-- It holds at the points ≡ 0 (mod 8). -/
theorem atFirstCol_iff : ∀ t : Fin cfg0.N, atFirstCol (grid0.coords t) ↔ t.val % 8 = 0 :=
  (by decide +kernel : ∀ t : Fin grid0.N, atFirstCol (grid0.coords t) ↔ t.val % 8 = 0)

/-- "This is the last block-column": the body's second conditional. -/
abbrev atLastCol (i : grid0.Coords) : Prop := k0_cond2 i = 1#1
/-- It holds at the points ≡ 7 (mod 8). -/
theorem atLastCol_iff : ∀ t : Fin cfg0.N, atLastCol (grid0.coords t) ↔ t.val % 8 = 7 :=
  (by decide +kernel : ∀ t : Fin grid0.N, atLastCol (grid0.coords t) ↔ t.val % 8 = 7)

/-- The matrix window is never idle; the output window is idle, and not written back, exactly off the last column. -/
theorem live0_0 : ∀ t : Fin cfg0.N, cfg0.idle 0 (grid0.coords t) = false := by decide +kernel
theorem idle0_1 : ∀ t : Fin cfg0.N, ¬atLastCol (grid0.coords t) → cfg0.idle 1 (grid0.coords t) = true := by decide +kernel
theorem noFlush0_1 : ∀ t : Fin cfg0.N, ¬atLastCol (grid0.coords t) → (cfg0.win 1).flush t = false := by decide +kernel
theorem live0_1 : ∀ t : Fin cfg0.N, atLastCol (grid0.coords t) → cfg0.idle 1 (grid0.coords t) = false := by decide +kernel

/-! ## The memrefs the body is called with -/

abbrev msIn (t : Fin cfg0.N) : Memref sig .tc .vmem S2048x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S2048x1 .f32 := win0_1.stage (cfg0.slots t 1)
abbrev hsOut (t : Fin cfg0.N) : (msOut t).IsWhole := hstage0_1 ((cfg0.slots t 1).cast nbuf0_1)
/-- The accumulator: the kernel's scratch operand, a whole scoped buffer of its own. -/
abbrev accM : Memref sig .tc .vmem S2048x1 .f32 := Memref.whole cc0_scratch0
abbrev accV : View sig .tc .vmem S2048x1 .f32 := accM.view
/-- One staging buffer of the output window, through which its contents are stated. -/
abbrev outV : View sig .tc .vmem S2048x1 .f32 := (Memref.whole cc0_stg1_0 : Memref sig .tc .vmem S2048x1 .f32).view

/-- The scoped buffers the region never touches (the other region's staging buffers), each whole at some contents. -/
def untouched (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant (every scoped buffer no window stages at some contents, the generator register at some state)
    with the accumulator split out as a memref owned at some contents. -/
theorem PhiA0_eq (c : Dev nD) :
    (Pipeline.ΦA spec0 c : sProp 𝕄)
      = iprop(iprop((∃ d, owns (c : Thread nD τ) accM fullShare d) ∗ untouched (F := F) c) ∗ (∃ r, prngReg c r)) := by
  unfold Pipeline.ΦA untouched; rw [scopedRest0_eq]; simp only [accM, owns_whole]; try rfl

/-! ## The body, case by case: the pieces each buffer ends with are found by running it -/

set_option maxHeartbeats 1000000 in
/-- FIRST COLUMN (and not the last): the accumulator, found at anything, ends with the pieces `LS` the run finds; the
    matrix block and the (idle) output buffer are handed back untouched. -/
noncomputable def degRunFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) :
    { LS : List (View.Piece (Elt F) S2048x1 .f32) //
      ∀ (xi : Vec F S2048x1 .f32) (E : Set ℕ) (K : PUnit → sProp 𝕄),
        iprop(owns (c : Thread nD τ) arg2 fullShare x0 ∗ owns (c : Thread nD τ) arg3 fullShare xi ∗ (∃ d, owns (c : Thread nD τ) arg4 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, fun xi E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- A MIDDLE COLUMN: the accumulator, found at `xs` (what the point before left), ends with the pieces the run finds. -/
noncomputable def degRunMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) :
    { LS : List (View.Piece (Elt F) S2048x1 .f32) //
      ∀ (xi : Vec F S2048x1 .f32) (E : Set ℕ) (K : PUnit → sProp 𝕄),
        iprop(owns (c : Thread nD τ) arg2 fullShare x0 ∗ owns (c : Thread nD τ) arg3 fullShare xi ∗ owns (c : Thread nD τ) arg4 fullShare xs
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, fun xi E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg4.eq_unread hfs
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- THE LAST COLUMN: the accumulator, found at `xs`, ends with the pieces `LS`, and the output buffer, found at
    anything, with the pieces `L1` (the copy of the accumulator). -/
noncomputable def degRunLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) :
    Σ' (L1 : List (View.Piece (Elt F) S2048x1 .f32)), { LS : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := harg2.eq_unread hf0; obtain rfl := harg4.eq_unread hfs
    sl_exec (disch := first | exact hF | exact hL)
    sl_step
    iapply Hk
    isplitl [H0]
    · iexists _; isplitr; · ipureintro; exact harg2.read_unread _
      iexact H0
    isplitl [H1]; · iexists _; iexact H1
    iexists _; iexact HS

end Cert.KernelIdeal.Hand

end
-- ==== Proof.DegRegion.lean ====
/-
  The first kernel region, continued: what the accumulator and the output block hold after each grid point, the
  region's invariant, its proof data and the body obligation.

  After point `t` the accumulator holds (`accAfter`): in the first block-column, what the first-column case leaves
  of the block alone; in any other column, what that column's case leaves of the block and of what point `t - 1`
  left. The output block, stored only in the last column, is there the last-column case's copy of the accumulator.
  The invariant before point `t > 0` is the accumulator at what point `t - 1` left, beside the untouched scoped
  buffers and the generator register.
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.DegRuns
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first-column case's pieces for the accumulator cover it. -/
theorem coverFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) (y : S2048x1.Idx) :
    ∃ pc ∈ (degRunFirst c i arg2 harg2 arg3 harg3 arg4 harg4 hF hL x0).1, y ∈ pc.1.set :=
  View.cover_of_tiledL (degRunFirst c i arg2 harg2 arg3 harg3 arg4 harg4 hF hL x0).1 S2048x1.size (by sl_kernel_rfl) y
/-- What the first-column case leaves in the accumulator. -/
def accFirst (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) : Vec F S2048x1 .f32 :=
  accV.read (Elt F) (accV.writes (Elt F) accV.junk (degRunFirst c i arg2 harg2 arg3 harg3 arg4 harg4 hF hL x0).1)

theorem coverMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) (y : S2048x1.Idx) :
    ∃ pc ∈ (degRunMid c i arg2 harg2 arg3 harg3 arg4 harg4 hF hL x0 xs).1, y ∈ pc.1.set :=
  View.cover_of_tiledL (degRunMid c i arg2 harg2 arg3 harg3 arg4 harg4 hF hL x0 xs).1 S2048x1.size (by sl_kernel_rfl) y
/-- What a middle-column case leaves in the accumulator, from what it found there. -/
def accMid (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) : Vec F S2048x1 .f32 :=
  accV.read (Elt F) (accV.writes (Elt F) accV.junk (degRunMid c i arg2 harg2 arg3 harg3 arg4 harg4 hF hL x0 xs).1)

theorem coverLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) (y : S2048x1.Idx) :
    ∃ pc ∈ (degRunLast c i arg2 harg2 arg3 harg3 arg4 harg4 hF hL x0 xs).2.1, y ∈ pc.1.set :=
  View.cover_of_tiledL (degRunLast c i arg2 harg2 arg3 harg3 arg4 harg4 hF hL x0 xs).2.1 S2048x1.size (by sl_kernel_rfl) y
/-- What the last-column case leaves in the accumulator. -/
def accLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) : Vec F S2048x1 .f32 :=
  accV.read (Elt F) (accV.writes (Elt F) accV.junk (degRunLast c i arg2 harg2 arg3 harg3 arg4 harg4 hF hL x0 xs).2.1)

theorem coverOut (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) (y : S2048x1.Idx) :
    ∃ pc ∈ (degRunLast c i arg2 harg2 arg3 harg3 arg4 harg4 hF hL x0 xs).1, y ∈ pc.1.set :=
  View.cover_of_tiledL (degRunLast c i arg2 harg2 arg3 harg3 arg4 harg4 hF hL x0 xs).1 S2048x1.size (by sl_kernel_rfl) y
/-- What the last-column case leaves in the output block. -/
def outLast (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) : Vec F S2048x1 .f32 :=
  outV.read (Elt F) (outV.writes (Elt F) outV.junk (degRunLast c i arg2 harg2 arg3 harg3 arg4 harg4 hF hL x0 xs).1)

/-- A placeholder for the output block where it is idle: nothing consults it there. -/
def outIdle : Vec F S2048x1 .f32 := outV.read (Elt F) (outV.junk (Val := Elt F))

/-! ## The accumulation, point by point -/

/-- What the output block and the accumulator hold after the body at position `n`. -/
def leftAfter (c : Dev nD) : (n : ℕ) → n < cfg0.N → Vec F S2048x1 .f32 × Vec F S2048x1 .f32
  | 0, hn => (outIdle, accFirst c (grid0.coords ⟨0, hn⟩) (msIn ⟨0, hn⟩) (hsIn ⟨0, hn⟩) (msOut ⟨0, hn⟩) (hsOut ⟨0, hn⟩) accM (Memref.isWhole_whole _) ((atFirstCol_iff ⟨0, hn⟩).mpr (Nat.zero_mod _)) (fun h => (fun h => by (try dsimp only at h); omega) ((atLastCol_iff ⟨0, hn⟩).mp h)) (blk0 V c 0 ⟨0, hn⟩))
  | n + 1, hn =>
    if h0 : (n + 1) % 8 = 0 then
      if h7 : (n + 1) % 8 = 7 then False.elim (by omega)
      else (outIdle, accFirst c (grid0.coords ⟨n + 1, hn⟩) (msIn ⟨n + 1, hn⟩) (hsIn ⟨n + 1, hn⟩) (msOut ⟨n + 1, hn⟩) (hsOut ⟨n + 1, hn⟩) accM (Memref.isWhole_whole _) ((atFirstCol_iff ⟨n + 1, hn⟩).mpr h0) (fun h => h7 ((atLastCol_iff ⟨n + 1, hn⟩).mp h)) (blk0 V c 0 ⟨n + 1, hn⟩))
    else
      if h7 : (n + 1) % 8 = 7 then
        (outLast c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) ((atLastCol_iff ⟨n + 1, hn⟩).mpr h7) (blk0 V c 0 ⟨n + 1, hn⟩) (leftAfter c n (Nat.lt_of_succ_lt hn)).2,
         accLast c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) ((atLastCol_iff ⟨n + 1, hn⟩).mpr h7) (blk0 V c 0 ⟨n + 1, hn⟩) (leftAfter c n (Nat.lt_of_succ_lt hn)).2)
      else
        (outIdle, accMid c (grid0.coords ⟨n + 1, hn⟩) (msIn ⟨n + 1, hn⟩) (hsIn ⟨n + 1, hn⟩) (msOut ⟨n + 1, hn⟩) (hsOut ⟨n + 1, hn⟩) accM (Memref.isWhole_whole _) (fun h => h0 ((atFirstCol_iff ⟨n + 1, hn⟩).mp h)) (fun h => h7 ((atLastCol_iff ⟨n + 1, hn⟩).mp h)) (blk0 V c 0 ⟨n + 1, hn⟩) (leftAfter c n (Nat.lt_of_succ_lt hn)).2)

/-- What point `t - 1` left in the accumulator. -/
abbrev accBefore (c : Dev nD) (t : Fin cfg0.N) : Vec F S2048x1 .f32 :=
  (leftAfter V c (t.val - 1) (Nat.lt_of_le_of_lt (Nat.sub_le _ _) t.isLt)).2

theorem leftAfter_first (c : Dev nD) (t : Fin cfg0.N) (h0 : t.val % 8 = 0) (h7 : ¬t.val % 8 = 7) :
    leftAfter V c t.val t.isLt = (outIdle, accFirst c (grid0.coords t) (msIn t) (hsIn t) (msOut t) (hsOut t) accM (Memref.isWhole_whole _) ((atFirstCol_iff t).mpr h0) (fun h => h7 ((atLastCol_iff t).mp h)) (blk0 V c 0 t)) := by
  obtain ⟨n, hn⟩ := t
  cases n with
  | zero => exact rfl
  | succ n => exact (dif_pos h0).trans ((dif_neg h7).trans rfl)

theorem leftAfter_mid (c : Dev nD) (t : Fin cfg0.N) (h0 : ¬t.val % 8 = 0) (h7 : ¬t.val % 8 = 7) :
    leftAfter V c t.val t.isLt = (outIdle, accMid c (grid0.coords t) (msIn t) (hsIn t) (msOut t) (hsOut t) accM (Memref.isWhole_whole _) (fun h => h0 ((atFirstCol_iff t).mp h)) (fun h => h7 ((atLastCol_iff t).mp h)) (blk0 V c 0 t) (accBefore V c t)) := by
  obtain ⟨n, hn⟩ := t
  cases n with
  | zero => exact (by exfalso; (try dsimp only at h0); exact absurd (Nat.zero_mod _) h0)
  | succ n => exact (dif_neg h0).trans ((dif_neg h7).trans rfl)

theorem leftAfter_last (c : Dev nD) (t : Fin cfg0.N) (h0 : ¬t.val % 8 = 0) (h7 : t.val % 8 = 7) :
    leftAfter V c t.val t.isLt = (outLast c (grid0.coords t) (msIn t) (hsIn t) (msOut t) (hsOut t) accM (Memref.isWhole_whole _) (fun h => h0 ((atFirstCol_iff t).mp h)) ((atLastCol_iff t).mpr h7) (blk0 V c 0 t) (accBefore V c t),
      accLast c (grid0.coords t) (msIn t) (hsIn t) (msOut t) (hsOut t) accM (Memref.isWhole_whole _) (fun h => h0 ((atFirstCol_iff t).mp h)) ((atLastCol_iff t).mpr h7) (blk0 V c 0 t) (accBefore V c t)) := by
  obtain ⟨n, hn⟩ := t
  cases n with
  | zero => exact (by exfalso; (try dsimp only at h0); exact absurd (Nat.zero_mod _) h0)
  | succ n => exact (dif_neg h0).trans ((dif_pos h7).trans rfl)

/-! ## The region's invariant -/

/-- Before position `n`: before the first point the class's invariant (the accumulator at anything); afterwards the
    accumulator at what the point before left, the untouched scoped buffers, the generator register at some state. -/
def PhiAcc (c : Dev nD) : (n : ℕ) → n ≤ cfg0.N → sProp 𝕄
  | 0, _ => Pipeline.ΦA spec0 c
  | n + 1, hn => iprop(iprop(owns (c : Thread nD τ) accM fullShare ((leftAfter V c n hn).2) ∗ untouched (F := F) c) ∗ (∃ r, prngReg c r))

theorem PhiAcc_zero (c : Dev nD) (n : ℕ) (h : n ≤ cfg0.N) (hz : n = 0) : PhiAcc V c n h = Pipeline.ΦA spec0 c := by
  subst hz; rfl

theorem PhiAcc_succ (c : Dev nD) (n : ℕ) (hn : n < cfg0.N) :
    PhiAcc V c (n + 1) hn = iprop(iprop(owns (c : Thread nD τ) accM fullShare ((leftAfter V c n hn).2) ∗ untouched (F := F) c) ∗ (∃ r, prngReg c r)) := rfl

theorem PhiAcc_pos (c : Dev nD) (n : ℕ) (h : n ≤ cfg0.N) (hz : n ≠ 0) :
    PhiAcc V c n h = iprop(iprop(owns (c : Thread nD τ) accM fullShare ((leftAfter V c (n - 1) (by omega)).2) ∗ untouched (F := F) c) ∗ (∃ r, prngReg c r)) := by
  cases n with
  | zero => exact absurd rfl hz
  | succ n => rfl

/-! ## The region's proof data -/

/-- The proof data of the region on core `c`: the arrays as the region finds them; after the body at point `t` the
    matrix window's buffer at its block and the output's at `leftAfter`'s first component; the invariant `PhiAcc`;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAfter V c t.val t.isLt).1
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiAcc V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = (leftAfter V c t.val t.isLt).1 := by dsimp only [dat0]

theorem found0_0 (c : Dev nD) (t : Fin cfg0.N) (d) : (dat0 V c).before 0 t d = blk0 V c 0 t :=
  found0_0_of V (dat0 V c) (A_eq0 V c 0) (after0_0 V c) t d

/-! ## The body obligation -/

def degPre (c : Dev nD) (t : Fin cfg0.N) : sProp 𝕄 :=
  iprop((dat0 V c).Φ t.castSucc ∗ (dat0 V c).owesAt () t.castSucc
    ∗ (∃ d, owns (c : Thread nD τ) (msIn t) fullShare ((dat0 V c).before 0 t d))
    ∗ (∃ d, owns (c : Thread nD τ) (msOut t) fullShare ((dat0 V c).before 1 t d)))

def degPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the matrix window's memref holds its block; the column of the point says which case it is
    in; the invariant hands the body the accumulator at what the point before left (at anything at the first point)
    and takes it back at this point's contents; the core owes nothing throughout. -/
theorem sound_deg_at (c : Dev nD) (t : Fin cfg0.N) :
    degPre V c t ⊢ wp frame (wpE (defs₀ (F := F)) Variants.none c none) Set.univ (bodyAt0 t) (fun _ => degPost V c t) := by
  unfold degPre degPost bodyAt0
  simp only [found0_0]
  rw [show (dat0 V c).owesAt () t.succ = (dat0 V c).owesAt () t.castSucc from rfl]
  rw [show (dat0 V c).Φ t.succ = PhiAcc V c (t.val + 1) t.isLt from rfl, PhiAcc_succ]
  have hN : t.val < 64 := lt_of_lt_of_eq t.isLt (show cfg0.N = 64 from N_0)
  rw [show (dat0 V c).leavesExact 0 t = owns (c : Thread nD τ) (msIn t) fullShare ((dat0 V c).after 0 t) from by
    unfold Dat.leavesExact; rw [live0_0 t], after0_0]
  by_cases h0 : t.val % 8 = 0
  · have h7 : ¬t.val % 8 = 7 := by omega
    rw [Dat.leavesExact_idle (dat0 V c) 1 t (idle0_1 t (fun h => h7 ((atLastCol_iff t).mp h))) (noFlush0_1 t (fun h => h7 ((atLastCol_iff t).mp h)))]
    rw [leftAfter_first V c t h0 h7]
    unfold accFirst; (try dsimp only)
    by_cases hz : t.val = 0
    · rw [Phi_castSucc V c t, PhiAcc_zero V c _ _ hz, PhiA0_eq]
      iintro ⟨⟨⟨HS, Hu⟩, Hg⟩, Ho, ⟨%d0, H0⟩, ⟨%d1, H1⟩⟩
      iapply ((degRunFirst c (grid0.coords t) (msIn t) (hsIn t) (msOut t) (hsOut t) accM (Memref.isWhole_whole _) ((atFirstCol_iff t).mpr h0) (fun h => h7 ((atLastCol_iff t).mp h)) (blk0 V c 0 t)).2 _ Set.univ _)
      isplitl [H0]; · iexact H0
      isplitl [H1]; · iexact H1
      isplitl [HS]; · iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverFirst _ _ _ _ _ _ _ _ _ _ _)
          iexact Hu
        iexact Hg
      isplitl [Ho]; · iexact Ho
      isplitl [H0]; · iexact H0
      iexists _; iexact H1
    · rw [Phi_castSucc V c t, PhiAcc_pos V c _ _ hz]
      iintro ⟨⟨⟨HS, Hu⟩, Hg⟩, Ho, ⟨%d0, H0⟩, ⟨%d1, H1⟩⟩
      iapply ((degRunFirst c (grid0.coords t) (msIn t) (hsIn t) (msOut t) (hsOut t) accM (Memref.isWhole_whole _) ((atFirstCol_iff t).mpr h0) (fun h => h7 ((atLastCol_iff t).mp h)) (blk0 V c 0 t)).2 _ Set.univ _)
      isplitl [H0]; · iexact H0
      isplitl [H1]; · iexact H1
      isplitl [HS]; · iexists _; iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverFirst _ _ _ _ _ _ _ _ _ _ _)
          iexact Hu
        iexact Hg
      isplitl [Ho]; · iexact Ho
      isplitl [H0]; · iexact H0
      iexists _; iexact H1
  · have hz : t.val ≠ 0 := fun e => h0 (by rw [e])
    by_cases h7 : t.val % 8 = 7
    · rw [show (dat0 V c).leavesExact 1 t = owns (c : Thread nD τ) (msOut t) fullShare ((dat0 V c).after 1 t) from by
        unfold Dat.leavesExact; rw [live0_1 t ((atLastCol_iff t).mpr h7)], after0_1]
      rw [leftAfter_last V c t h0 h7]
      unfold outLast accLast; (try dsimp only)
      rw [Phi_castSucc V c t, PhiAcc_pos V c _ _ hz]
      iintro ⟨⟨⟨HS, Hu⟩, Hg⟩, Ho, ⟨%d0, H0⟩, ⟨%d1, H1⟩⟩
      iapply ((degRunLast c (grid0.coords t) (msIn t) (hsIn t) (msOut t) (hsOut t) accM (Memref.isWhole_whole _) (fun h => h0 ((atFirstCol_iff t).mp h)) ((atLastCol_iff t).mpr h7) (blk0 V c 0 t) _).2.2 Set.univ _)
      isplitl [H0]; · iexact H0
      isplitl [H1]; · iexists _; iexact H1
      isplitl [HS]; · iexact HS
      iintro ⟨H0, ⟨%e1, H1⟩, ⟨%es, HS⟩⟩
      isplitl [HS Hu Hg]
      · isplitl [HS Hu]
        · isplitl [HS]
          · unfold owns; iexists _; isplitr
            swap; · iexact HS
            ipureintro; exact View.read_writes_of_cover _ _ _ _ _ (coverLast _ _ _ _ _ _ _ _ _ _ _ _)
          iexact Hu
        iexact Hg
      isplitl [Ho]; · iexact Ho
      isplitl [H0]; · iexact H0
      unfold owns; iexists _; isplitr
      swap; · iexact H1
      ipureintro; exact View.read_writes_of_cover _ _ _ _ _ (coverOut _ _ _ _ _ _ _ _ _ _ _ _)
    · rw [Dat.leavesExact_idle (dat0 V c) 1 t (idle0_1 t (fun h => h7 ((atLastCol_iff t).mp h))) (noFlush0_1 t (fun h => h7 ((atLastCol_iff t).mp h)))]
      rw [leftAfter_mid V c t h0 h7]
      unfold accMid; (try dsimp only)
      rw [Phi_castSucc V c t, PhiAcc_pos V c _ _ hz]
      iintro ⟨⟨⟨HS, Hu⟩, Hg⟩, Ho, ⟨%d0, H0⟩, ⟨%d1, H1⟩⟩
      iapply ((degRunMid c (grid0.coords t) (msIn t) (hsIn t) (msOut t) (hsOut t) accM (Memref.isWhole_whole _) (fun h => h0 ((atFirstCol_iff t).mp h)) (fun h => h7 ((atLastCol_iff t).mp h)) (blk0 V c 0 t) _).2 _ Set.univ _)
      isplitl [H0]; · iexact H0
      isplitl [H1]; · iexact H1
      isplitl [HS]; · iexact HS
      iintro ⟨H0, H1, ⟨%es, HS⟩⟩
      isplitl [HS Hu Hg]
      · isplitl [HS Hu]
        · isplitl [HS]
          · unfold owns; iexists _; isplitr
            swap; · iexact HS
            ipureintro; exact View.read_writes_of_cover _ _ _ _ _ (coverMid _ _ _ _ _ _ _ _ _ _ _ _)
          iexact Hu
        iexact Hg
      isplitl [Ho]; · iexact Ho
      isplitl [H0]; · iexact H0
      iexists _; iexact H1

/-- The library's body obligation, at every point. -/
theorem deg_obligation (c : Dev nD) : BodyObligation (dat0 (F := F) V c) (defs₀ (F := F)) Variants.none () Set.univ := fun t => by
  rw [bigSep_W0, bigSep_W0]
  exact sound_deg_at V c t

/-- What the launch hands the region is the invariant before the first point. -/
theorem deg_in (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the invariant gives the class's back: the accumulator's named contents are forgotten. -/
theorem deg_out (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiAcc V c (Fin.last cfg0.N).val (Nat.le_of_lt_succ (Fin.last cfg0.N).isLt) from rfl,
    PhiAcc_pos V c _ _ hne, PhiA0_eq]
  iintro ⟨⟨HS, Hu⟩, Hg⟩
  isplitl [HS Hu]
  · isplitl [HS]
    · iexists _; iexact HS
    iexact Hu
  iexact Hg

end Cert.KernelIdeal.Hand

end
-- ==== Proof.MixRegion.lean ====
/-
  The second kernel region (the softmax-and-mix kernel, four grid points of 4096 rows each), from ANY contents `V` of
  the core's buffers at its entry, at any float instance.

  At grid point `t` the body is handed block `t` of the degree column (4096 × 1), and — whole, the same at every
  point — the anchors' degrees as a row (1 × 64), the scale (1 × 1) and the embeddings (64 × 128); it stores ONE value
  over its whole output block (4096 × 128): the body's arithmetic `k1_pay1` of the four blocks. So after the body the
  output's staging buffer holds that value (`mixedBlock`), the inputs' buffers are as found, and the region's
  invariant (the scoped buffers no window stages, the generator register) passes through untouched.
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window fetched
    only at the first point keeps its block index, so the block in the buffer is still this point's): one lemma per
    input window, for ANY proof data whose array is the entry contents and whose body leaves the block in place. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output's buffer -/

/-- The whole-block rectangle of the output's staging buffer. -/
abbrev rOut1 : Rect S4096x128 := Rect.unit (s := S4096x128) ![0, 0] S4096x128.size inb_S4096x128_S4096x128_0_0
abbrev rIn1_0 : Rect S4096x1 := Rect.unit (s := S4096x1) ![0, 0] S4096x1.size inb_S4096x1_S4096x1_0_0
abbrev rIn1_1 : Rect S1x64 := Rect.unit (s := S1x64) ![0, 0] S1x64.size inb_S1x64_S1x64_0_0
abbrev rIn1_2 : Rect S1x1 := Rect.unit (s := S1x1) ![0, 0] S1x1.size inb_S1x1_S1x1_0_0
abbrev rIn1_3 : Rect S64x128 := Rect.unit (s := S64x128) ![0, 0] S64x128.size inb_S64x128_S64x128_0_0

/-- The output's staging buffer after the body, from the four input blocks: its one store, read back. -/
def mixedBlock (x0 : Vec F S4096x1 .f32) (x1 : Vec F S1x64 .f32) (x2 : Vec F S1x1 .f32) (x3 : Vec F S64x128 .f32) : Vec F S4096x128 .f32 :=
  View.canon [⟨rOut1, k1_pay1 (View.ld x0 rIn1_0) (View.ld x1 rIn1_1) (View.ld x2 rIn1_2) (View.ld x3 rIn1_3)⟩]

/-- The one store covers the buffer. -/
theorem mixed_cover (p0 : Vec F S4096x128 .f32) (y : S4096x128.Idx) :
    ∃ pc ∈ ([⟨rOut1, p0⟩] : List (View.Piece (Elt F) S4096x128 .f32)), y ∈ pc.1.set :=
  View.cover_of_tiled [⟨rOut1, p0⟩] S4096x128.size (by rfl) y

/-! ## The body's triple -/

set_option maxHeartbeats 1000000 in
/-- The body on whole staging memrefs, the inputs' at contents `x0 … x3` and the output's at anything, runs to the
    continuation holding the inputs' as they were and the output's at `mixedBlock` of them. -/
theorem sound_mix (c : Dev nD) (E : Set ℕ) (i : grid1.Coords)
    (arg1 : Memref sig .tc .vmem S4096x1 .f32) (harg1 : arg1.IsWhole) (arg2 : Memref sig .tc .vmem S1x64 .f32) (harg2 : arg2.IsWhole)
    (arg3 : Memref sig .tc .vmem S1x1 .f32) (harg3 : arg3.IsWhole) (arg4 : Memref sig .tc .vmem S64x128 .f32) (harg4 : arg4.IsWhole)
    (arg5 : Memref sig .tc .vmem S4096x128 .f32) (harg5 : arg5.IsWhole)
    (x0 : Vec F S4096x1 .f32) (x1 : Vec F S1x64 .f32) (x2 : Vec F S1x1 .f32) (x3 : Vec F S64x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (mixedBlock x0 x1 x2 x3)) -∗ K ⟨⟩))
      ⊢ wp frame (wpE (defs₀ (F := F)) Variants.none c none) E (cc1__aw_kernel i arg1 harg1 arg2 harg2 arg3 harg3 arg4 harg4 arg5 harg5) K := by
  simp only [cc1__aw_kernel_eq_skeleton]; unfold cc1__aw_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (mixed_cover _)

/-! ## The region's proof data -/

/-- The proof data of the region on core `c`: the arrays as the region finds them; after the body at point `t` each
    input's buffer at its block and the output's at `mixedBlock` of the four blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => mixedBlock (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) :
    (dat1 V c).after 4 t = mixedBlock (blk1 V c 0 t) (blk1 V c 1 t) (blk1 V c 2 t) (blk1 V c 3 t) := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d
theorem found1_3 (c : Dev nD) (t : Fin cfg1.N) (d) : (dat1 V c).before 3 t d = blk1 V c 3 t :=
  found1_3_of V (dat1 V c) (A_eq1 V c 3) (after1_3 V c) t d

/-! ## The body obligation -/

/-- What the body is called with at point `t`, the windows one by one, -/
def mixPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def mixPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_mix` applies; the invariant and the
    core's dues pass through unread. -/
theorem sound_mix_at (c : Dev nD) (t : Fin cfg1.N) :
    mixPre V c t ⊢ wp frame (wpE (defs₀ (F := F)) Variants.none c none) Set.univ (bodyAt1 t) (fun _ => mixPost V c t) := by
  unfold mixPre mixPost bodyAt1
  simp only [found1_0, found1_1, found1_2, found1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_mix c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem mix_obligation (c : Dev nD) : BodyObligation (dat1 (F := F) V c) (defs₀ (F := F)) Variants.none () Set.univ := fun t => by
  rw [bigSep_W1, bigSep_W1]
  exact sound_mix_at V c t

end Cert.KernelIdeal.Hand

end
-- ==== Proof.Whole.lean ====
/-
  The whole run of the kernel's program, at any float instance: the row-sum region, the host operations between the
  regions (the norm of the degree column; the scale; the first 64 degrees laid out as a row), the softmax-and-mix
  region.

  The buffers' contents at each boundary are a fold from the launch memory: after the first region its arrays are at
  what its write-backs leave; each host stretch applies its operations; after the second region its arrays are at
  what its write-backs leave. Each region is entered from "every unscoped buffer at the boundary's contents, the
  generator register at some state, nothing owed" and left at the same with the next contents. The run's post reads
  every unscoped buffer at the last contents (`whole_run`): the argument arrays walk back through the fold to the
  launch memory (no host operation and no region writes one), which is the frame claim (`frame`).
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.Gen.KernelIdeal.Regions
import proofs.«128045_j62612033241328_1_alg».proof.Proof.DegRegion
import proofs.«128045_j62612033241328_1_alg».proof.Proof.MixRegion
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev V0r : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the norm's four host operations. -/
abbrev W2 : Dev nD → Valuation τ sig (Elt F) := fun c => StableHlo.after hostOps1 (W1 m c)
/-- After the six host operations that make the scale and the anchors' row (the second region's entry). -/
abbrev W3 : Dev nD → Valuation τ sig (Elt F) := fun c => StableHlo.after hostOps1_1 (W2 m c)
abbrev V3r : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3r m) c).arrAt w cfg1.N
theorem W4_arr (c : Dev nD) (w : Fin cfg1.W) :
    W4 m c (Proc.devRef .tc (Pipeline.arrRef spec1 w)) = (dat1 (V3r m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4r : (c : Dev nD) → (b : Ref sig .tc) → Buf (Elt F) ((c : Thread nD τ).loc b) := fun c b => W4 m c b
theorem hF1 (c : Dev nD) (w : Fin cfg1.W) : (dat1 (V3r m) c).arrAt w cfg1.N = V4r m c (Pipeline.arrRef spec1 w) :=
  (W4_arr m c w).symm
theorem hrest1 (c : Dev nD) : ∀ b, b ∉ Finset.univ.image (Pipeline.arrRef spec1) → V4r m c b = V3r m c b :=
  fun b hb => W4_of_ne m c b fun w e => hb (Finset.mem_image.mpr ⟨w, Finset.mem_univ _, e⟩)

/-- A buffer no operation of the norm's stretch writes is unchanged by it; likewise the second stretch. -/
theorem W2_of (c : Dev nD) (r : Ref sig .tc) (h : r ∉ hostOps1_W) : W2 m c r = W1 m c r :=
  StableHlo.after_of_writes_sub hostOps1 _ hostOps1_writes h
theorem W3_of (c : Dev nD) (r : Ref sig .tc) (h : r ∉ hostOps1_1_W) : W3 m c r = W2 m c r :=
  StableHlo.after_of_writes_sub hostOps1_1 _ hostOps1_1_writes h

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of m c main_arg0 (by decide)
    _ = W0 m c (Proc.devRef .tc main_arg0) := (W1_arr m c 0).trans (((dat0 (V0r m) c).arrAt_in 0 rfl _).trans (A_eq0 (V0r m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 3).trans (((dat1 (V3r m) c).arrAt_in 3 rfl _).trans (A_eq1 (V3r m) c 3))
    _ = W2 m c (Proc.devRef .tc main_arg1) := W3_of m c main_arg1 (by decide)
    _ = W1 m c (Proc.devRef .tc main_arg1) := W2_of m c main_arg1 (by decide)
    _ = W0 m c (Proc.devRef .tc main_arg1) := W1_of_ne m c main_arg1 (by decide)
    _ = m ((c : Thread nD τ).loc main_arg1) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V3r m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (deg_obligation (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from deg_out (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (mix_obligation (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (V4r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m) ]

set_option backward.isDefEq.respectTransparency.types false in
/-- THE RUN: from any memory with zero counters every weakly fair execution of @main terminates, nothing faulting,
    and every final state has every unscoped buffer at the last boundary's contents. -/
theorem whole_run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (whole_run m ρ)

end Cert.KernelIdeal.Hand

end
-- ==== Proof.DegValue.lean ====
/-
  What the row-sum region computes, read as values.

  Each control case leaves in the accumulator (and, in the last column, in the output block) the body's arithmetic of
  the point's matrix block and of what the accumulator held: the first column `k0_pay2` of the zero splat and the
  block, every other column `k0_pay2` of what the point before left and the block; the last column's output block is
  the accumulator's new contents.
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.DegRegion
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off_zero : (![0, 0] : Fin 2 → Nat) = fun _ => 0 := funext fun a => by fin_cases a <;> rfl

/-- The first column: the zero splat stored, read back, and the block's row sums added. -/
theorem accFirst_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : atFirstCol i) (hL : ¬atLastCol i) (x0 : Vec F S2048x2048 .f32) :
    accFirst c i arg2 harg2 arg3 harg3 arg4 harg4 hF hL x0 = k0_pay2 (k0_pay1 (F := F)) x0 := by
  unfold accFirst
  rw [View.read_writes_eq_canon _ _ _ (coverFirst c i arg2 harg2 arg3 harg3 arg4 harg4 hF hL x0)]
  unfold degRunFirst
  dsimp only
  try sl_unfold_words
  rw [View.canon_cons_unit_zero off_zero, View.readCov_unit_zero (S := S2048x1) _ off_zero]
  simp only [View.readAt_eq_ld, harg2.read_unread, View.ld_unit_zero (S := S2048x2048) off_zero]

/-- A middle column: the block's row sums added onto what the accumulator held. -/
theorem accMid_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : ¬atLastCol i) (x0 : Vec F S2048x2048 .f32) (xs : Vec F S2048x1 .f32) :
    accMid c i arg2 harg2 arg3 harg3 arg4 harg4 hF hL x0 xs = k0_pay2 xs x0 := by
  unfold accMid
  rw [View.read_writes_eq_canon _ _ _ (coverMid c i arg2 harg2 arg3 harg3 arg4 harg4 hF hL x0 xs)]
  unfold degRunMid
  dsimp only
  try sl_unfold_words
  rw [View.canon_unit_zero off_zero]
  simp only [View.readAt_eq_ld, harg2.read_unread, harg4.read_unread, View.ld_unit_zero (S := S2048x2048) off_zero,
    View.ld_unit_zero (S := S2048x1) off_zero]

/-- The last column: the same for the accumulator, -/
theorem accLast_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) :
    accLast c i arg2 harg2 arg3 harg3 arg4 harg4 hF hL x0 xs = k0_pay2 xs x0 := by
  unfold accLast
  rw [View.read_writes_eq_canon _ _ _ (coverLast c i arg2 harg2 arg3 harg3 arg4 harg4 hF hL x0 xs)]
  unfold degRunLast
  dsimp only
  try sl_unfold_words
  rw [View.canon_unit_zero off_zero]
  simp only [View.readAt_eq_ld, harg2.read_unread, harg4.read_unread, View.ld_unit_zero (S := S2048x2048) off_zero,
    View.ld_unit_zero (S := S2048x1) off_zero]

/-- and the output block is the accumulator's new contents. -/
theorem outLast_eq (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x1 .f32) (harg4 : arg4.IsWhole) (hF : ¬atFirstCol i) (hL : atLastCol i) (x0 : Vec F S2048x2048 .f32) (xs : Vec F S2048x1 .f32) :
    outLast c i arg2 harg2 arg3 harg3 arg4 harg4 hF hL x0 xs = k0_pay2 xs x0 := by
  unfold outLast
  rw [View.read_writes_eq_canon _ _ _ (coverOut c i arg2 harg2 arg3 harg3 arg4 harg4 hF hL x0 xs)]
  unfold degRunLast
  dsimp only
  try sl_unfold_words
  rw [View.canon_unit_zero off_zero, View.readCov_unit_zero (S := S2048x1) _ off_zero]
  simp only [View.readAt_eq_ld, harg2.read_unread, harg4.read_unread, View.ld_unit_zero (S := S2048x2048) off_zero,
    View.ld_unit_zero (S := S2048x1) off_zero]

end Cert.KernelIdeal.Hand

end
-- ==== Proof.AnchorMix.lean ====
/-
  The mathematics both programs compute, stated once over the extended reals and over plain index types, with no
  program in sight.

  From an adjacency matrix `adj` (16384 × 16384) and anchor embeddings `emb` (64 × 128):
  * the degree of row `r` is the sum of the row, `deg r = ∑ c, adj r c`;
  * the scale is `‖deg‖₂ + ε` (`scale`: the square root of the sum of the squared degrees, plus the literal ε);
  * the similarity of a row of degree `d` to an anchor of degree `a` is `d · a / n` (`sim`);
  * a row's weights over the 64 anchors are the softmax of its similarities — the maximum subtracted
    (`rowMax`), exponentials (`wexp`), their sum (`wsum`), the quotient (`weight`);
  * the result at (row, feature) is the weighted sum of the anchors' embeddings at that feature (`mix`).
-/
import Idealize.ShloMosaic.PureOps.Ideal
import Idealize.ShloMosaic.PureOps.Ideal.Laws
import Idealize.ShloMosaic.Lib.ValueIdx

noncomputable section

namespace Cert.AnchorMix

open Idealize.ShloMosaic Idealize.ShloMosaic.ValueIdx

/-- The shapes the scale is computed over: the degrees as a column, and a scalar. -/
abbrev SCol : Shape := ⟨2, ![16384, 1]⟩
abbrev SScalar : Shape := ⟨0, ![]⟩

theorem col_to_scalar : SCol.ReducesTo [0, 1] SScalar := by decide
theorem scalar_pos : 0 < SScalar.numel := by decide

/-- The scale: the Euclidean norm of the degree column plus the literal ε (the f32 word of 1e-6), as the host computes
    it — the squares, their sum from zero, the square root, the addition. Both programs apply exactly these host
    operations to the degree column, so the bridge never opens them. -/
def scale (v : FVec Ideal SCol .f32) : FVec Ideal SScalar .f32 :=
  addf (Host.sqrt (Host.reduceAdd (mulf v v) (constant (F := Ideal) SScalar .f32 0x00000000#32) col_to_scalar scalar_pos))
    (constant (F := Ideal) SScalar .f32 0x358637BD#32)

/-- The similarity of a row of degree `d` to an anchor of degree `a`, at scale `n`. -/
def sim (n d a : EReal) : EReal := Ideal.div (d * a) n

/-- The largest similarity of a row to the 64 anchors, taken from `-∞` (and once more against `-∞`, as both
    programs do). -/
def rowMax (n d : EReal) (a : Fin 64 → EReal) : EReal :=
  max (Ideal.ofBits .f32 0xFF800000#32)
    ((Finset.univ : Finset (Fin 64)).fold max (Ideal.ofBits .f32 0xFF800000#32) (fun k => sim n d (a k)))

/-- The exponential of a similarity less the row's maximum. -/
def wexp (n d : EReal) (a : Fin 64 → EReal) (k : Fin 64) : EReal := Ideal.exp (sim n d (a k) - rowMax n d a)

/-- The sum of a row's exponentials. -/
def wsum (n d : EReal) (a : Fin 64 → EReal) : EReal := ∑ k : Fin 64, wexp n d a k

/-- A row's softmax weight on anchor `k`. -/
def weight (n d : EReal) (a : Fin 64 → EReal) (k : Fin 64) : EReal := Ideal.div (wexp n d a k) (wsum n d a)

/-- The weighted sum of the anchors' values `e`. -/
def mix (n d : EReal) (a : Fin 64 → EReal) (e : Fin 64 → EReal) : EReal := ∑ k : Fin 64, weight n d a k * e k

/-- Anchor `k` is row `k` of the matrix. -/
def anchorRow (k : Fin 64) : Fin 16384 := ⟨k.val, by have := k.isLt; omega⟩

/-- THE RESULT as one function of the degree column and the embeddings: at (row `r`, feature `h`), the mix of the
    anchors' embeddings at `h` under row `r`'s softmax weights. -/
def result (dcol : FVec Ideal SCol .f32) (emb : FVec Ideal ⟨2, ![64, 128]⟩ .f32) : FVec Ideal ⟨2, ![16384, 128]⟩ .f32 :=
  fun i => mix (scale dcol ix0) (dcol (ix2 (i 0) 0)) (fun k => dcol (ix2 (anchorRow k) 0)) (fun k => emb (ix2 k (i 1)))

/-- The degree column of an adjacency matrix: each row's sum. -/
def degCol (adj : FVec Ideal ⟨2, ![16384, 16384]⟩ .f32) : FVec Ideal SCol .f32 :=
  fun i => ∑ c : Fin 16384, adj (ix2 (i 0) c)

end Cert.AnchorMix

end
-- ==== Proof.PayMix.lean ====
/-
  What the idealized kernel's three stored values hold at an index, over the extended reals.

  * The degree kernel first stores zero (`pay_zero`), then at every block adds to the running column each row's sum over the
    block's 2048 columns (`pay_acc`).
  * The mixing kernel stores, at (row `p`, feature `h`), the mix of the 64 anchors' embeddings at `h` under the softmax weights of
    row `p`'s similarities (`pay_mix`): the similarities are the row's degree times the anchors' degrees over the scale; the weights
    subtract the row's maximum, exponentiate, and divide by the row's sum; the product with the embeddings is a sum over the 64
    anchors.
  * A sum over 16384 columns is the sum over 8 blocks of the sums over each block's 2048 columns (`sum_blocks`).

  The layout operations are read at an index one at a time (a vector made a column, a column / a row / a single entry spread over a
  block), the lane reductions as a sum or a fold of `max` over the row's coordinates, the matrix product as a sum over the shared
  coordinate.
-/
import proofs.«128045_j62612033241328_1_alg».proof.Proof.Gen.KernelIdeal.Skeleton
import proofs.«128045_j62612033241328_1_alg».proof.Proof.AnchorMix
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Layout operations on a column, read at an index -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A single entry `[1, 1]` broadcast to `[a, b]` reads that entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

end Layout

/-! ## Lane reductions read at a row -/

/-- The lane sum of a `[2048, 2048]` block at row `p` is the sum of that row. -/
theorem lane_sum_2048 (x : FVec Ideal S2048x2048 .f32) (p : Fin 2048) :
    multiReduction (F := Ideal) .add [1] S2048 x 0x00000000#32 reduces_S2048x2048_S2048 (.inl rfl) rfl (ix1 p)
      = ∑ j : Fin 2048, x (ix2 p j) := by
  refine (Ideal.multiReduction_add_single x 0x00000000#32 reduces_S2048x2048_S2048 (.inl rfl) rfl (ix1 p)).trans ?_
  exact Finset.sum_congr rfl fun k _ => congrArg x (funext fun a => Fin.ext (by
    match a with
    | ⟨0, _⟩ => rfl
    | ⟨1, _⟩ => rfl))

/-- The lane sum of a `[4096, 64]` block at row `p` is the sum of that row. -/
theorem lane_sum_4096 (x : FVec Ideal S4096x64 .f32) (p : Fin 4096) :
    multiReduction (F := Ideal) .add [1] S4096 x 0x00000000#32 reduces_S4096x64_S4096 (.inl rfl) rfl (ix1 p)
      = ∑ k : Fin 64, x (ix2 p k) := by
  refine (Ideal.multiReduction_add_single x 0x00000000#32 reduces_S4096x64_S4096 (.inl rfl) rfl (ix1 p)).trans ?_
  exact Finset.sum_congr rfl fun k _ => congrArg x (funext fun a => Fin.ext (by
    match a with
    | ⟨0, _⟩ => rfl
    | ⟨1, _⟩ => rfl))

/-- The lane maximum of a `[4096, 64]` block at row `p` is the fold of `max` over that row, from `-∞`. -/
theorem lane_max_4096 (x : FVec Ideal S4096x64 .f32) (p : Fin 4096) :
    multiReduction (F := Ideal) .maximumf [1] S4096 x 0xFF800000#32 reduces_S4096x64_S4096 (.inl rfl) rfl (ix1 p)
      = (Finset.univ : Finset (Fin 64)).fold max (Ideal.ofBits .f32 0xFF800000#32) (fun k => x (ix2 p k)) := by
  refine (Ideal.multiReduction_maximumf_single x 0xFF800000#32 reduces_S4096x64_S4096 (.inl rfl) rfl (ix1 p)).trans ?_
  have e : (x ∘ reduces_S4096x64_S4096.lift (ix1 p)) = fun k : Fin 64 => x (ix2 p k) :=
    funext fun k => congrArg x (funext fun a => Fin.ext (by
      match a with
      | ⟨0, _⟩ => rfl
      | ⟨1, _⟩ => rfl))
  exact congrArg (fun g => (Finset.univ : Finset (Fin 64)).fold max (Ideal.ofBits .f32 0xFF800000#32) g) e

/-- A per-row value `[4096]`, made a column and spread over the 64 lanes, reads at `(p, k)` the value of row `p`. -/
theorem col_apply (y : FVec Ideal S4096 .f32) (p : Fin 4096) (k : Fin 64) :
    broadcastTo S4096x64 (shapeCast S4096x1 y shapeCasts_S4096_S4096x1) broadcasts_S4096x1_S4096x64 (ix2 p k) = y (ix1 p) :=
  (broadcastTo_a1_ab_apply _ broadcasts_S4096x1_S4096x64 p k).trans (shapeCast_a_a1_apply y shapeCasts_S4096_S4096x1 p 0)

/-! ## The matrix product read at an index -/

/-- The left operand's index on the row axis is the output's row. -/
theorem lhs_row (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide),
    dif_pos (show (0 : Fin S4096x64.rank) ∈ dot_S4096x64_S64x128_S4096x128_1_0_0_1_n_n.lhsNonContracting by decide)]
  rfl

/-- The right operand's index on the column axis is the output's column. -/
theorem rhs_col (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide),
    dif_pos (show (1 : Fin S64x128.rank) ∈ dot_S4096x64_S64x128_S4096x128_1_0_0_1_n_n.rhsNonContracting by decide)]
  rfl

/-- The product of a `[4096, 64]` block with a `[64, 128]` block, accumulated into zero, at `(p, h)`: the sum over the 64
    shared coordinates of the products. -/
theorem matmul_row_apply (w : FVec Ideal S4096x64 .f32) (e : FVec Ideal S64x128 .f32) (p : Fin 4096) (h : Fin 128) :
    matmul (F := Ideal) dot_S4096x64_S64x128_S4096x128_1_0_0_1_n_n none w e (constant (F := Ideal) S4096x128 .f32 0x00000000#32) (ix2 p h)
      = ∑ k : Fin 64, w (ix2 p k) * e (ix2 k h) := by
  simp only [matmul]
  rw [Ideal.matmul_constant_zero_apply,
    ← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 p h)
      ((contrEquiv1 dot_S4096x64_S64x128_S4096x128_1_0_0_1_n_n 64 rfl rfl).symm k) = ix2 p k :=
    funext fun a => Fin.ext (by
      match a with
      | ⟨0, _⟩ => exact lhs_row _ _
      | ⟨1, _⟩ => exact (dot_S4096x64_S64x128_S4096x128_1_0_0_1_n_n.lhsIdx_val_of_single rfl _ _).trans hk)
  have er : dot_S4096x64_S64x128_S4096x128_1_0_0_1_n_n.rhsIdx (ix2 p h)
      ((contrEquiv1 dot_S4096x64_S64x128_S4096x128_1_0_0_1_n_n 64 rfl rfl).symm k) = ix2 k h :=
    funext fun a => Fin.ext (by
      match a with
      | ⟨0, _⟩ => exact (dot_S4096x64_S64x128_S4096x128_1_0_0_1_n_n.rhsIdx_val_of_single rfl _ _).trans hk
      | ⟨1, _⟩ => exact rhs_col _ _)
  rw [el, er]

/-! ## The stages of the softmax over a `[4096, 64]` block -/

/-- Each row's maximum, taken from `-∞` and once more against `-∞`. -/
def rowMaxV (x : FVec Ideal S4096x64 .f32) : FVec Ideal S4096 .f32 :=
  maximumf (broadcast S4096 (Scalar.ofBits (F := Ideal) .f32 0xFF800000#32))
    (multiReduction .maximumf [1] S4096 x 0xFF800000#32 reduces_S4096x64_S4096 (.inl rfl) rfl)

/-- The exponentials of the entries less their row's maximum. -/
def expV (x : FVec Ideal S4096x64 .f32) : FVec Ideal S4096x64 .f32 :=
  exp (subf x (broadcastTo S4096x64 (shapeCast S4096x1 (rowMaxV x) shapeCasts_S4096_S4096x1) broadcasts_S4096x1_S4096x64))

/-- The exponentials divided by their row's sum. -/
def weightV (x : FVec Ideal S4096x64 .f32) : FVec Ideal S4096x64 .f32 :=
  divf (expV x) (broadcastTo S4096x64 (shapeCast S4096x1
    (multiReduction .add [1] S4096 (expV x) 0x00000000#32 reduces_S4096x64_S4096 (.inl rfl) rfl)
    shapeCasts_S4096_S4096x1) broadcasts_S4096x1_S4096x64)

/-- The similarities: the row degrees (a column) times the anchor degrees (a row), over the scale (one entry). -/
def simV (v0 : Vec Ideal S4096x1 .f32) (v2 : Vec Ideal S1x64 .f32) (v4 : Vec Ideal S1x1 .f32) : FVec Ideal S4096x64 .f32 :=
  divf (mulf (broadcastTo S4096x64 (shapeCast S4096x1 v0 shapeCasts_S4096x1_S4096x1) broadcasts_S4096x1_S4096x64)
      (broadcastTo S4096x64 (shapeCast S1x64 v2 shapeCasts_S1x64_S1x64) broadcasts_S1x64_S4096x64))
    (broadcastTo S4096x64 (shapeCast S1x1 v4 shapeCasts_S1x1_S1x1) broadcasts_S1x1_S4096x64)

/-- The payload is the product of the softmax weights of the similarities with the embeddings. -/
theorem k1_pay1_eq (v0 : Vec Ideal S4096x1 .f32) (v2 : Vec Ideal S1x64 .f32) (v4 : Vec Ideal S1x1 .f32) (v22 : Vec Ideal S64x128 .f32) :
    k1_pay1 (F := Ideal) v0 v2 v4 v22
      = matmul (F := Ideal) (φ₂ := .f32) dot_S4096x64_S64x128_S4096x128_1_0_0_1_n_n none (weightV (simV v0 v2 v4)) v22
          (constant (F := Ideal) S4096x128 .f32 0x00000000#32) := rfl

/-! ## The stages read at an index -/

theorem rowMaxV_apply (x : FVec Ideal S4096x64 .f32) (p : Fin 4096) :
    rowMaxV x (ix1 p) = max (Ideal.ofBits .f32 0xFF800000#32)
      ((Finset.univ : Finset (Fin 64)).fold max (Ideal.ofBits .f32 0xFF800000#32) (fun k => x (ix2 p k))) := by
  unfold rowMaxV
  exact congrArg (max (Ideal.ofBits .f32 0xFF800000#32)) (lane_max_4096 x p)

theorem expV_apply (x : FVec Ideal S4096x64 .f32) (p : Fin 4096) (k : Fin 64) :
    expV x (ix2 p k) = Ideal.exp (x (ix2 p k) - rowMaxV x (ix1 p)) := by
  unfold expV
  exact congrArg (fun m => Ideal.exp (x (ix2 p k) - m)) (col_apply (rowMaxV x) p k)

theorem weightV_apply (x : FVec Ideal S4096x64 .f32) (p : Fin 4096) (k : Fin 64) :
    weightV x (ix2 p k) = Ideal.div (expV x (ix2 p k)) (∑ k' : Fin 64, expV x (ix2 p k')) := by
  unfold weightV
  exact congrArg (Ideal.div (expV x (ix2 p k))) ((col_apply _ p k).trans (lane_sum_4096 (expV x) p))

theorem simV_apply (v0 : Vec Ideal S4096x1 .f32) (v2 : Vec Ideal S1x64 .f32) (v4 : Vec Ideal S1x1 .f32) (p : Fin 4096) (k : Fin 64) :
    simV v0 v2 v4 (ix2 p k) = Cert.AnchorMix.sim (v4 (ix2 0 0)) (v0 (ix2 p 0)) (v2 (ix2 0 k)) := by
  unfold simV Cert.AnchorMix.sim
  rw [shapeCast_self, shapeCast_self, shapeCast_self]
  show Ideal.div (broadcastTo S4096x64 v0 broadcasts_S4096x1_S4096x64 (ix2 p k) * broadcastTo S4096x64 v2 broadcasts_S1x64_S4096x64 (ix2 p k))
      (broadcastTo S4096x64 v4 broadcasts_S1x1_S4096x64 (ix2 p k)) = _
  rw [broadcastTo_a1_ab_apply, broadcastTo_1b_ab_apply, broadcastTo_11_ab_apply]

/-! ## The three payloads -/

/-- The first store of the degree kernel writes zero. -/
theorem pay_zero (p : Fin 2048) : k0_pay1 (F := Ideal) (ix2 p 0) = 0 := by
  unfold k0_pay1
  rw [shapeCast_self]
  exact Ideal.ofBits_zero_f32

/-- The degree kernel adds, to the running column, each row's sum over the block's 2048 columns. -/
theorem pay_acc (v3 : Vec Ideal S2048x1 .f32) (v4 : Vec Ideal S2048x2048 .f32) (p : Fin 2048) :
    k0_pay2 (F := Ideal) v3 v4 (ix2 p 0) = v3 (ix2 p 0) + ∑ j : Fin 2048, v4 (ix2 p j) := by
  unfold k0_pay2
  rw [shapeCast_self]
  exact congrArg (v3 (ix2 p 0) + ·) ((shapeCast_a_a1_apply _ shapeCasts_S2048_S2048x1 p 0).trans (lane_sum_2048 v4 p))

/-- The mixing kernel's block at (row `p`, feature `h`) is the mix of the embeddings at `h` under row `p`'s softmax weights. -/
theorem pay_mix (v0 : Vec Ideal S4096x1 .f32) (v2 : Vec Ideal S1x64 .f32) (v4 : Vec Ideal S1x1 .f32)
    (v22 : Vec Ideal S64x128 .f32) (p : Fin 4096) (h : Fin 128) :
    k1_pay1 (F := Ideal) v0 v2 v4 v22 (ix2 p h)
      = Cert.AnchorMix.mix (v4 (ix2 0 0)) (v0 (ix2 p 0)) (fun k => v2 (ix2 0 k)) (fun k => v22 (ix2 k h)) := by
  have hx : ∀ k : Fin 64, simV v0 v2 v4 (ix2 p k)
      = Cert.AnchorMix.sim (v4 (ix2 0 0)) (v0 (ix2 p 0)) (v2 (ix2 0 k)) := fun k => simV_apply v0 v2 v4 p k
  have hM : rowMaxV (simV v0 v2 v4) (ix1 p)
      = Cert.AnchorMix.rowMax (v4 (ix2 0 0)) (v0 (ix2 p 0)) (fun k => v2 (ix2 0 k)) := by
    rw [rowMaxV_apply]
    unfold Cert.AnchorMix.rowMax
    exact congrArg (fun g => max (Ideal.ofBits .f32 0xFF800000#32)
      ((Finset.univ : Finset (Fin 64)).fold max (Ideal.ofBits .f32 0xFF800000#32) g)) (funext hx)
  have hE : ∀ k : Fin 64, expV (simV v0 v2 v4) (ix2 p k)
      = Cert.AnchorMix.wexp (v4 (ix2 0 0)) (v0 (ix2 p 0)) (fun k => v2 (ix2 0 k)) k := fun k => by
    rw [expV_apply, hM, hx]
    rfl
  have hW : ∀ k : Fin 64, weightV (simV v0 v2 v4) (ix2 p k)
      = Cert.AnchorMix.weight (v4 (ix2 0 0)) (v0 (ix2 p 0)) (fun k => v2 (ix2 0 k)) k := fun k => by
    rw [weightV_apply, hE]
    unfold Cert.AnchorMix.weight Cert.AnchorMix.wsum
    exact congrArg (Ideal.div _) (Finset.sum_congr rfl fun k' _ => hE k')
  rw [k1_pay1_eq]
  refine (matmul_row_apply _ v22 p h).trans ?_
  unfold Cert.AnchorMix.mix
  exact Finset.sum_congr rfl fun k _ => congrArg (· * v22 (ix2 k h)) (hW k)

/-! ## The sum over 16384 columns, by blocks of 2048 -/

theorem sum_blocks (f : Fin 16384 → EReal) :
    ∑ c : Fin 16384, f c = ∑ k : Fin 8, ∑ j : Fin 2048, f ⟨k.val * 2048 + j.val, by have := k.isLt; have := j.isLt; omega⟩ := by
  rw [← Equiv.sum_comp (finProdFinEquiv : Fin 8 × Fin 2048 ≃ Fin 16384) f, Fintype.sum_prod_type]
  refine Finset.sum_congr rfl fun k _ => Finset.sum_congr rfl fun j _ => congrArg f (Fin.ext ?_)
  show j.val + 2048 * k.val = k.val * 2048 + j.val
  omega

end Cert.KernelIdeal.PayValue

end
-- ==== Proof.DegArray.lean ====
/-
  The row-sum region's array, read as values over the extended reals: the degree column.

  Grid point `t` is block-row `t / 8`, block-column `t % 8`; its matrix block holds, at (p, j), the matrix entry at
  row `(t / 8) · 2048 + p`, column `(t % 8) · 2048 + j`. By induction on the point, after point `t` the accumulator
  holds at row `p` the sum of that matrix row over the first `t % 8 + 1` column blocks (`partialRow`): the first
  column starts from the zero splat, every other column adds its block's row sums onto what the point before left
  (addition of extended reals is associative; no finiteness is needed). In the last column that is the sum over all
  eight column blocks, which is the sum over the whole row (`sum_blocks`); the output block written back there is the
  accumulator, and the eight write-backs (one per block-row) tile the 16384 × 1 array.
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.DegValue
import proofs.«128045_j62612033241328_1_alg».proof.Proof.PayMix
import proofs.«128045_j62612033241328_1_alg».proof.Proof.AnchorMix
import Idealize.ShloMosaic.Lib.Pipeline.Value
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.KernelIdeal.PayValue

variable (V : (c : Dev nD) → (b : Ref sig .tc) → Buf (Elt Ideal) ((c : Thread nD τ).loc b))

/-! ## Entries of the matrix by natural coordinates -/

/-- The matrix entry at natural coordinates (reduced into range, so that the function is total; every use is in range). -/
def entry (a : S16384x16384.Idx → EReal) (row col : ℕ) : EReal :=
  a (ix2 ⟨row % 16384, Nat.mod_lt _ (by decide)⟩ ⟨col % 16384, Nat.mod_lt _ (by decide)⟩)

/-- The sum of a matrix row over its first `n` column blocks of 2048. -/
def partialRow (a : S16384x16384.Idx → EReal) (row n : ℕ) : EReal :=
  ∑ k ∈ Finset.range n, ∑ j : Fin 2048, entry a row (k * 2048 + j.val)

theorem partialRow_succ (a : S16384x16384.Idx → EReal) (row n : ℕ) :
    partialRow a row (n + 1) = partialRow a row n + ∑ j : Fin 2048, entry a row (n * 2048 + j.val) :=
  Finset.sum_range_succ _ n

/-- Over all eight column blocks it is the sum over the whole row. -/
theorem partialRow_eight (a : S16384x16384.Idx → EReal) (row : ℕ) (hrow : row < 16384) :
    partialRow a row 8 = ∑ c : Fin 16384, a (ix2 ⟨row, hrow⟩ c) := by
  unfold partialRow
  rw [Finset.sum_range, sum_blocks (fun c => a (ix2 ⟨row, hrow⟩ c))]
  refine Finset.sum_congr rfl fun k _ => Finset.sum_congr rfl fun j _ => ?_
  unfold entry
  have hk : k.val < 8 := k.isLt
  have hj : j.val < 2048 := j.isLt
  refine congrArg a (congrArg₂ ix2 (Fin.ext (Nat.mod_eq_of_lt hrow)) (Fin.ext (Nat.mod_eq_of_lt (by omega))))

/-! ## The block of the matrix at a point -/

/-- The printed index maps over the grid: block-row and block-column of the matrix window, block-row of the output's. -/
theorem index_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, _)

/-- The matrix block at point `t`, at (p, j), is the matrix entry at row `(t / 8) · 2048 + p`, column `(t % 8) · 2048 + j`. -/
theorem blk0_entry (c : Dev nD) (t : Fin cfg0.N) (p j : Fin 2048) :
    (blk0 V c 0 t : Vec Ideal S2048x2048 .f32) (ix2 p j)
      = entry (V c main_arg0 : S16384x16384.Idx → EReal) (t.val / 8 * 2048 + p.val) (t.val % 8 * 2048 + j.val) := by
  obtain ⟨e0, e1, -, -⟩ := index_facts t
  have hN : t.val < 64 := lt_of_lt_of_eq t.isLt (show cfg0.N = 64 from N_0)
  have hp : p.val < 2048 := p.isLt
  have hj : j.val < 2048 := j.isLt
  unfold blk0 entry
  rw [View.read_apply]
  show (V c main_arg0 : S16384x16384.Idx → EReal) _ = (V c main_arg0 : S16384x16384.Idx → EReal) _
  refine congrArg (V c main_arg0 : S16384x16384.Idx → EReal) ?_
  funext a
  apply Fin.ext
  match a with
  | ⟨0, _⟩ =>
    show win0_0.index t (0 : Fin 2) * 2048 + 1 * p.val = (t.val / 8 * 2048 + p.val) % 16384
    have hlt : t.val / 8 * 2048 + p.val < 16384 := by omega
    rw [e0, Nat.mod_eq_of_lt hlt]; omega
  | ⟨1, _⟩ =>
    show win0_0.index t (1 : Fin 2) * 2048 + 1 * j.val = (t.val % 8 * 2048 + j.val) % 16384
    have hlt : t.val % 8 * 2048 + j.val < 16384 := by omega
    rw [e1, Nat.mod_eq_of_lt hlt]; omega

/-! ## The accumulation -/

/-- After point `n` the accumulator holds, at row `p`, the matrix row's sum over the first `n % 8 + 1` column blocks. -/
theorem acc_partial (c : Dev nD) : ∀ (n : ℕ) (hn : n < cfg0.N) (p : Fin 2048),
    ((leftAfter V c n hn).2 : Vec Ideal S2048x1 .f32) (ix2 p 0)
      = partialRow (V c main_arg0 : S16384x16384.Idx → EReal) (n / 8 * 2048 + p.val) (n % 8 + 1) := by
  intro n
  induction n with
  | zero =>
    intro hn p
    rw [leftAfter_first V c ⟨0, hn⟩ (Nat.zero_mod _) (by show ¬(0 % 8 = 7); decide)]
    dsimp only
    rw [accFirst_eq, pay_acc, PayValue.pay_zero, zero_add]
    show _ = partialRow _ _ 1
    unfold partialRow
    rw [Finset.sum_range_one]
    refine Finset.sum_congr rfl fun j _ => ?_
    rw [blk0_entry]
    rfl
  | succ n ih =>
    intro hn p
    have hN : n + 1 < 64 := lt_of_lt_of_eq hn (show cfg0.N = 64 from N_0)
    by_cases h0 : (n + 1) % 8 = 0
    · have h7 : ¬(n + 1) % 8 = 7 := by omega
      rw [leftAfter_first V c ⟨n + 1, hn⟩ h0 h7]
      dsimp only
      rw [accFirst_eq, pay_acc, PayValue.pay_zero, zero_add, h0]
      show _ = partialRow _ _ 1
      unfold partialRow
      rw [Finset.sum_range_one]
      refine Finset.sum_congr rfl fun j _ => ?_
      rw [blk0_entry]
      show entry _ ((n + 1) / 8 * 2048 + p.val) ((n + 1) % 8 * 2048 + j.val) = _
      rw [h0]
    · have hprev := ih (Nat.lt_of_succ_lt hn) p
      obtain ⟨q, hq⟩ : ∃ q, (n + 1) / 8 = q := ⟨_, rfl⟩
      obtain ⟨s, hs⟩ : ∃ s, (n + 1) % 8 = s := ⟨_, rfl⟩
      have hdiv : n / 8 = q := by omega
      have hmod : n % 8 + 1 = s := by omega
      rw [hdiv, hmod] at hprev
      have hblk : ∀ j : Fin 2048, (blk0 V c 0 ⟨n + 1, hn⟩ : Vec Ideal S2048x2048 .f32) (ix2 p j)
          = entry (V c main_arg0 : S16384x16384.Idx → EReal) (q * 2048 + p.val) (s * 2048 + j.val) := fun j => by
        rw [blk0_entry]
        show entry _ ((n + 1) / 8 * 2048 + p.val) ((n + 1) % 8 * 2048 + j.val) = _
        rw [hq, hs]
      rw [hq, hs, partialRow_succ]
      by_cases h7 : (n + 1) % 8 = 7
      · rw [leftAfter_last V c ⟨n + 1, hn⟩ h0 h7]
        dsimp only
        rw [accLast_eq, pay_acc]
        show ((leftAfter V c n (Nat.lt_of_succ_lt hn)).2 : Vec Ideal S2048x1 .f32) (ix2 p 0) + _ = _
        rw [hprev]
        exact congrArg (_ + ·) (Finset.sum_congr rfl fun j _ => hblk j)
      · rw [leftAfter_mid V c ⟨n + 1, hn⟩ h0 h7]
        dsimp only
        rw [accMid_eq, pay_acc]
        show ((leftAfter V c n (Nat.lt_of_succ_lt hn)).2 : Vec Ideal S2048x1 .f32) (ix2 p 0) + _ = _
        rw [hprev]
        exact congrArg (_ + ·) (Finset.sum_congr rfl fun j _ => hblk j)

/-- In the last column the output block is the accumulator's new contents. -/
theorem out_is_acc (c : Dev nD) (t : Fin cfg0.N) (h7 : t.val % 8 = 7) :
    (leftAfter V c t.val t.isLt).1 = (leftAfter V c t.val t.isLt).2 := by
  have h0 : ¬t.val % 8 = 0 := by omega
  rw [leftAfter_last V c t h0 h7]
  dsimp only
  rw [outLast_eq, accLast_eq]

/-! ## The write-backs and the array -/

/-- A column read through the output window's block at point `t`: at row `p` of the block, the column's entry at row
    `(t / 8) · 2048 + p`. -/
theorem out_block_read (G : S16384x1.Idx → EReal) (t : Fin cfg0.N) (p : Fin 2048) (hrow : t.val / 8 * 2048 + p.val < 16384) :
    (((cfg0.win 1).blk t).view.read (Elt Ideal) G : Vec Ideal S2048x1 .f32) (ix2 p 0)
      = G (ix2 ⟨t.val / 8 * 2048 + p.val, hrow⟩ 0) := by
  obtain ⟨-, -, e2, e3⟩ := index_facts t
  rw [View.read_apply]
  refine congrArg G ?_
  funext a
  apply Fin.ext
  match a with
  | ⟨0, _⟩ =>
    show win0_1.index t (0 : Fin 2) * 2048 + 1 * p.val = t.val / 8 * 2048 + p.val
    rw [e2]; omega
  | ⟨1, _⟩ =>
    show win0_1.index t (1 : Fin 2) * 1 + 1 * 0 = 0
    rw [e3]

/-- The degree column at (row, 0) is that row's sum. -/
theorem degCol_row (a : S16384x16384.Idx → EReal) (r : Fin 16384) :
    Cert.AnchorMix.degCol a (ix2 r 0) = ∑ cc : Fin 16384, a (ix2 r cc) := rfl

/-- WHAT A LAST-COLUMN POINT WRITES BACK is its block of the degree column of the matrix as the region finds it. -/
theorem flushed_deg (c : Dev nD) (t : Fin cfg0.N) (hf : (cfg0.win 1).flush t = true) :
    (dat0 (F := Ideal) V c).flushed 1 t
      = ((cfg0.win 1).blk t).view.read (Elt Ideal) (Cert.AnchorMix.degCol (V c main_arg0 : S16384x16384.Idx → EReal)) := by
  have h7 : t.val % 8 = 7 := (flush0_1 t).mp hf
  have hN : t.val < 64 := lt_of_lt_of_eq t.isLt (show cfg0.N = 64 from N_0)
  show (cfg0.win 1).cut (grid0.coords t) ((dat0 V c).after 1 t) = _
  rw [after0_1, out_is_acc V c t h7]
  funext j
  obtain ⟨p, q, rfl⟩ : ∃ (p : Fin 2048) (q : Fin 1), j = ix2 p q := ⟨j 0, j 1, eq_ix2 j⟩
  obtain rfl : q = 0 := Subsingleton.elim _ _
  have hp : p.val < 2048 := p.isLt
  have hrow : t.val / 8 * 2048 + p.val < 16384 := by omega
  refine Eq.trans ?_ (out_block_read _ t p hrow).symm
  rw [degCol_row]
  show ((leftAfter V c t.val t.isLt).2 : Vec Ideal S2048x1 .f32) (ix2 p 0) = _
  rw [acc_partial V c t.val t.isLt p, h7]
  exact partialRow_eight _ _ hrow

/-- An index of the degree column is in point `t`'s block iff each coordinate is in the block's range on its axis. -/
theorem mem_blk_deg (t : Fin cfg0.N) (i : S16384x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- THE ARRAY after the region: the degree column of the matrix as the region finds it. -/
theorem deg_array (c : Dev nD) :
    (dat0 (F := Ideal) V c).arrAt 1 cfg0.N = Cert.AnchorMix.degCol (V c main_arg0 : S16384x16384.Idx → EReal) :=
  (dat0 V c).arrAt_eq_of_cover 1 _ (flushed_deg V c) fun i => by
    have hi0 : (i 0).val < 16384 := (i 0).isLt
    have hi1 : (i 1).val < 1 := (i 1).isLt
    have hlt : (i 0).val / 2048 * 8 + 7 < cfg0.N := by rw [show cfg0.N = 64 from N_0]; omega
    refine ⟨⟨(i 0).val / 2048 * 8 + 7, hlt⟩, (flush0_1 _).mpr (by show ((i 0).val / 2048 * 8 + 7) % 8 = 7; omega), ?_⟩
    rw [mem_blk_deg]
    obtain ⟨-, -, e2, e3⟩ := index_facts ⟨(i 0).val / 2048 * 8 + 7, hlt⟩
    intro a
    match a with
    | ⟨0, _⟩ =>
      show win0_1.index _ (0 : Fin 2) * 2048 ≤ (i 0).val ∧ (i 0).val < win0_1.index _ (0 : Fin 2) * 2048 + 2048
      rw [e2]; show ((i 0).val / 2048 * 8 + 7) / 8 * 2048 ≤ _ ∧ _ < ((i 0).val / 2048 * 8 + 7) / 8 * 2048 + 2048; omega
    | ⟨1, _⟩ =>
      show win0_1.index _ (1 : Fin 2) * 1 ≤ (i 1).val ∧ (i 1).val < win0_1.index _ (1 : Fin 2) * 1 + 1
      rw [e3]; omega

end Cert.KernelIdeal.Hand

end
-- ==== Proof.MixValue.lean ====
/-
  From the second region's blocks to its array, over the extended reals.

  The region runs four grid points. At point `t` the body is handed rows `4096 t … 4096 t + 4095` of the degree column and,
  whole, the anchors' degrees (a row of 64), the scale (one entry) and the embeddings (64 × 128); it writes back rows
  `4096 t … 4096 t + 4095` of the output. Each entry it writes is the mix of the anchors' embeddings at the entry's feature under
  the softmax weights of the entry's row (`mixArr_point`, from the body's arithmetic read at an index), so what point `t` writes
  back is block `t` of ONE function of the four arrays (`mixArr_flushed`); row `r` lies in the block of point `r / 4096`, so the
  four blocks cover the output (`mixArr_cover`); hence the output array ends holding that function (`mix_array`).
-/
import proofs.«128045_j62612033241328_1_alg».proof.Proof.MixRegion
import proofs.«128045_j62612033241328_1_alg».proof.Proof.PayMix
import proofs.«128045_j62612033241328_1_alg».proof.Proof.AnchorMix
import Idealize.ShloMosaic.Lib.Pipeline.Value
import Idealize.ShloMosaic.Lib.ValueIdx

noncomputable section

namespace Cert.KernelIdeal.Hand

open Cert.KernelIdeal Cert.KernelIdeal.Gen Cert.KernelIdeal.PayValue Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

/-- Zero offsets on both axes, however spelt. -/
theorem mixArr_off_zero : (![0, 0] : Fin 2 → Nat) = fun _ => 0 := funext fun a => by fin_cases a <;> rfl

/-- The block indices over the four grid points: the degree column and the output move down one block of 4096 rows per
    point; the anchors' row, the scale and the embeddings are whole at every point. -/
theorem mixArr_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The input blocks, read off the arrays the region finds -/

/-- Block `t` of the degree column: rows `4096 t … 4096 t + 4095`. -/
theorem mixArr_blk0 (c : Dev nD) (t : Fin cfg1.N) (j : S4096x1.Idx) (k : S16384x1.Idx)
    (hk0 : (k 0).val = t.val * 4096 + (j 0).val) (hk1 : (k 1).val = (j 1).val) :
    (blk1 V c 0 t : Vec Ideal S4096x1 .f32) j = (V c main_v0 : S16384x1.Idx → EReal) k := by
  obtain ⟨e0, e1, -⟩ := mixArr_idx t
  unfold blk1
  rw [View.read_apply]
  show V c main_v0 _ = V c main_v0 _
  congr 1
  funext a
  apply Fin.ext
  match a with
  | ⟨0, _⟩ => show win1_0.index t 0 * 4096 + 1 * (j 0).val = (k 0).val; rw [e0, hk0]; omega
  | ⟨1, _⟩ => show win1_0.index t 1 * 1 + 1 * (j 1).val = (k 1).val; rw [e1, hk1]; omega

/-- The anchors' degrees: the whole row, at every point. -/
theorem mixArr_blk1 (c : Dev nD) (t : Fin cfg1.N) :
    (blk1 V c 1 t : Vec Ideal S1x64 .f32) = (V c main_v6 : S1x64.Idx → EReal) := by
  obtain ⟨-, -, e2, e3, -⟩ := mixArr_idx t
  funext j
  unfold blk1
  rw [View.read_apply]
  show V c main_v6 _ = V c main_v6 j
  congr 1
  funext a
  apply Fin.ext
  match a with
  | ⟨0, _⟩ => show win1_1.index t 0 * 1 + 1 * (j 0).val = (j 0).val; rw [e2]; omega
  | ⟨1, _⟩ => show win1_1.index t 1 * 64 + 1 * (j 1).val = (j 1).val; rw [e3]; omega

/-- The scale: the one entry, at every point. -/
theorem mixArr_blk2 (c : Dev nD) (t : Fin cfg1.N) :
    (blk1 V c 2 t : Vec Ideal S1x1 .f32) = (V c main_v3 : S1x1.Idx → EReal) := by
  obtain ⟨-, -, -, -, e4, e5, -⟩ := mixArr_idx t
  funext j
  unfold blk1
  rw [View.read_apply]
  show V c main_v3 _ = V c main_v3 j
  congr 1
  funext a
  apply Fin.ext
  match a with
  | ⟨0, _⟩ => show win1_2.index t 0 * 1 + 1 * (j 0).val = (j 0).val; rw [e4]; omega
  | ⟨1, _⟩ => show win1_2.index t 1 * 1 + 1 * (j 1).val = (j 1).val; rw [e5]; omega

/-- The embeddings: the whole matrix, at every point. -/
theorem mixArr_blk3 (c : Dev nD) (t : Fin cfg1.N) :
    (blk1 V c 3 t : Vec Ideal S64x128 .f32) = (V c main_arg1 : S64x128.Idx → EReal) := by
  obtain ⟨-, -, -, -, -, -, e6, e7, -⟩ := mixArr_idx t
  funext j
  unfold blk1
  rw [View.read_apply]
  show V c main_arg1 _ = V c main_arg1 j
  congr 1
  funext a
  apply Fin.ext
  match a with
  | ⟨0, _⟩ => show win1_3.index t 0 * 64 + 1 * (j 0).val = (j 0).val; rw [e6]; omega
  | ⟨1, _⟩ => show win1_3.index t 1 * 128 + 1 * (j 1).val = (j 1).val; rw [e7]; omega

/-! ## The array the output ends holding -/

/-- The mix at (row, feature) as one function of the four arrays: the scale's entry, the row's degree, the anchors'
    degrees, the embeddings' column. -/
def mixG (a0 : S16384x1.Idx → EReal) (a1 : S1x64.Idx → EReal) (a2 : S1x1.Idx → EReal) (a3 : S64x128.Idx → EReal) :
    S16384x128.Idx → EReal :=
  fun i => Cert.AnchorMix.mix (a2 (ix2 0 0)) (a0 (ix2 (i 0) 0)) (fun k => a1 (ix2 0 k)) (fun k => a3 (ix2 k (i 1)))

/-- One entry of a point's block: the body's arithmetic at `(p, h)` is the mix at row `r`, when the block's row `p` is the
    column's row `r`. -/
theorem mixArr_point (x0 : Vec Ideal S4096x1 .f32) (x1 : Vec Ideal S1x64 .f32) (x2 : Vec Ideal S1x1 .f32)
    (x3 : Vec Ideal S64x128 .f32) (a0 : S16384x1.Idx → EReal) (r : Fin 16384) (p : Fin 4096) (h : Fin 128)
    (hx0 : x0 (ix2 p 0) = a0 (ix2 r 0)) :
    k1_pay1 (F := Ideal) x0 x1 x2 x3 (ix2 p h) = mixG a0 x1 x2 x3 (ix2 r h) := by
  rw [pay_mix, hx0]
  rfl

/-- WHAT POINT `t` WRITES BACK is block `t` of the mix of the four arrays as the region finds them. -/
theorem mixArr_flushed (c : Dev nD) (t : Fin cfg1.N) :
    (dat1 (F := Ideal) V c).flushed 4 t
      = ((cfg1.win 4).blk t).view.read (Elt Ideal) (mixG (V c main_v0) (V c main_v6) (V c main_v3) (V c main_arg1)) := by
  show (cfg1.win 4).cut (grid1.coords t) ((dat1 V c).after 4 t) = _
  rw [after1_4]
  unfold mixedBlock
  rw [View.canon_unit_zero mixArr_off_zero]
  simp only [View.ld_unit_zero (S := S4096x1) mixArr_off_zero, View.ld_unit_zero (S := S1x64) mixArr_off_zero,
    View.ld_unit_zero (S := S1x1) mixArr_off_zero, View.ld_unit_zero (S := S64x128) mixArr_off_zero]
  rw [mixArr_blk1, mixArr_blk2, mixArr_blk3]
  obtain ⟨-, -, -, -, -, -, -, -, e8, e9⟩ := mixArr_idx t
  have ht : t.val < 4 := lt_of_lt_of_eq t.isLt N_1
  funext j
  show k1_pay1 (F := Ideal) (blk1 V c 0 t) (V c main_v6) (V c main_v3) (V c main_arg1) (j : S4096x128.Idx)
    = mixG (V c main_v0) (V c main_v6) (V c main_v3) (V c main_arg1) (((cfg1.win 4).blk t).view.emb j)
  obtain ⟨p, h, rfl⟩ : ∃ (p : Fin 4096) (h : Fin 128), j = ix2 p h := ⟨j 0, j 1, eq_ix2 j⟩
  have hemb : ((cfg1.win 4).blk t).view.emb (ix2 p h)
      = (ix2 (⟨t.val * 4096 + p.val, by have := p.isLt; omega⟩ : Fin 16384) h : S16384x128.Idx) := by
    funext a
    apply Fin.ext
    match a with
    | ⟨0, _⟩ => show win1_4.index t 0 * 4096 + 1 * p.val = t.val * 4096 + p.val; rw [e8]; omega
    | ⟨1, _⟩ => show win1_4.index t 1 * 128 + 1 * h.val = h.val; rw [e9]; omega
  rw [hemb]
  exact mixArr_point (blk1 V c 0 t) (V c main_v6) (V c main_v3) (V c main_arg1) (V c main_v0) _ p h
    (mixArr_blk0 V c t (ix2 p 0) (ix2 _ 0) rfl rfl)

/-- Row `r` of the output is in the block of point `r / 4096`: the four blocks cover the array. -/
theorem mixArr_cover (i : S16384x128.Idx) :
    ∃ t : Fin cfg1.N, (cfg1.win 4).flush t = true ∧ i ∈ ((cfg1.win 4).blk t).view.set := by
  have hi0 : (i 0).val < 16384 := (i 0).isLt
  have hi1 : (i 1).val < 128 := (i 1).isLt
  have hN : cfg1.N = 4 := N_1
  obtain ⟨t, ht⟩ : ∃ t : Fin cfg1.N, t.val = (i 0).val / 4096 := ⟨⟨(i 0).val / 4096, by rw [hN]; omega⟩, rfl⟩
  obtain ⟨-, -, -, -, -, -, -, -, e8, e9⟩ := mixArr_idx t
  refine ⟨t, flush1_4 t, ?_⟩
  show i ∈ ((View.whole main_v7).slice (win1_4.rect t)).set
  rw [View.set_slice_whole, Rect.mem_set_unit]
  intro a
  match a with
  | ⟨0, _⟩ =>
    show win1_4.index t 0 * 4096 ≤ (i 0).val ∧ (i 0).val < win1_4.index t 0 * 4096 + 4096
    rw [e8, ht]; omega
  | ⟨1, _⟩ =>
    show win1_4.index t 1 * 128 ≤ (i 1).val ∧ (i 1).val < win1_4.index t 1 * 128 + 128
    rw [e9]; omega

/-- THE OUTPUT ARRAY after the region: at (row, feature), the mix of the anchors' embeddings at the feature under the row's
    softmax weights, from the arrays as the region finds them. -/
theorem mix_array (c : Dev nD) : (dat1 (F := Ideal) V c).arrAt 4 cfg1.N
    = fun (i : S16384x128.Idx) => Cert.AnchorMix.mix ((V c main_v3 : S1x1.Idx → EReal) (ix2 0 0))
        ((V c main_v0 : S16384x1.Idx → EReal) (ix2 (i 0) 0)) (fun k => (V c main_v6 : S1x64.Idx → EReal) (ix2 0 k))
        (fun k => (V c main_arg1 : S64x128.Idx → EReal) (ix2 k (i 1))) :=
  (dat1 V c).arrAt_eq_of_cover 4 (mixG (V c main_v0) (V c main_v6) (V c main_v3) (V c main_arg1))
    (fun t _ => mixArr_flushed V c t) mixArr_cover

end Cert.KernelIdeal.Hand

end
-- ==== Proof.HostGlue.lean ====
/-
  The host operations between the two kernel regions, read as values. After the first region has left the degree
  column, the host computes the scale from it (the squares, their sum from zero, the square root, plus ε, laid out as a
  1 × 1 array) and takes the column's first 64 entries (the anchors' degrees, laid out as a 1 × 64 row); it writes
  neither the degree column nor the embeddings.
-/
import proofs.«128045_j62612033241328_1_alg».proof.Proof.Gen.KernelIdeal.Launch
import proofs.«128045_j62612033241328_1_alg».proof.Proof.Gen.KernelIdeal.Regions
import proofs.«128045_j62612033241328_1_alg».proof.Proof.AnchorMix
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.ShloMosaic.ValueIdx Idealize.SL.Sem

/-- The buffers' contents after the two host stretches, from contents W. -/
abbrev after2 (W : Valuation τ sig (Elt Ideal)) : Valuation τ sig (Elt Ideal) :=
  StableHlo.after hostOps1_1 (StableHlo.after hostOps1 W)

/-! ## What the host leaves alone -/

/-- Neither stretch writes the degree column. -/
theorem glue_deg (W : Valuation τ sig (Elt Ideal)) :
    after2 W (Proc.devRef .tc main_v0) = W (Proc.devRef .tc main_v0) :=
  (StableHlo.after_of_writes_sub hostOps1_1 _ hostOps1_1_writes (by decide)).trans
    (StableHlo.after_of_writes_sub hostOps1 _ hostOps1_writes (by decide))

/-- Neither stretch writes the embeddings. -/
theorem glue_emb (W : Valuation τ sig (Elt Ideal)) :
    after2 W (Proc.devRef .tc main_arg1) = W (Proc.devRef .tc main_arg1) :=
  (StableHlo.after_of_writes_sub hostOps1_1 _ hostOps1_1_writes (by decide)).trans
    (StableHlo.after_of_writes_sub hostOps1 _ hostOps1_writes (by decide))

/-! ## The scale -/

/-- The scale's array after the two stretches, as the host operations' term over the degree column. -/
theorem v3_term (W : Valuation τ sig (Elt Ideal)) :
    (after2 W (Proc.devRef .tc main_v3) : S1x1.Idx → EReal)
      = shapeCast S1x1 (Cert.AnchorMix.scale (W (Proc.devRef .tc main_v0))) shapeCasts_S_S1x1 := by
  show StableHlo.after hostOps1_1 (StableHlo.after hostOps1 W) (Proc.devRef .tc main_v3) = _
  dsimp only [hostOps1, hostOps1_1]
  after_results
  rfl

/-- A 1 × 1 layout of a scalar read at its one index is the scalar. -/
theorem scalar_read (y : S_.Idx → EReal) : shapeCast S1x1 y shapeCasts_S_S1x1 (ix2 0 0) = y ix0 := by
  refine shapeCast_apply y shapeCasts_S_S1x1 (ix2 0 0) ix0 ?_
  have h := (S_.rowMajor (ix0 : S_.Idx)).isLt
  have h1 : S_.numel = 1 := by decide
  rw [Shape.rowMajor_val_two]
  show ((S_.rowMajor ix0).val : ℕ) = 0 * 1 + 0
  omega

/-- THE SCALE the second region reads is the specification's scale of the degree column. -/
theorem glue_scale (W : Valuation τ sig (Elt Ideal)) :
    (after2 W (Proc.devRef .tc main_v3) : S1x1.Idx → EReal) (ix2 0 0)
      = Cert.AnchorMix.scale (W (Proc.devRef .tc main_v0)) ix0 := by
  rw [v3_term]
  exact scalar_read _

/-! ## The anchors' degrees -/

/-- The anchors' row after the two stretches, as the host operations' term over the degree column: the first 64
    entries of the column, laid out flat, then as a row. -/
theorem v6_term (W : Valuation τ sig (Elt Ideal)) :
    (after2 W (Proc.devRef .tc main_v6) : S1x64.Idx → EReal)
      = shapeCast S1x64 (shapeCast S64 (extractStridedSlice S64x1 ![0, 0]
          (W (Proc.devRef .tc main_v0) : S16384x1.Idx → EReal) slices_S16384x1_S64x1_0_0) shapeCasts_S64x1_S64)
          shapeCasts_S64_S1x64 := by
  show StableHlo.after hostOps1_1 (StableHlo.after hostOps1 W) (Proc.devRef .tc main_v6) = _
  dsimp only [hostOps1, hostOps1_1]
  after_results
  rfl

/-- That term read at anchor k: entry k of the column. Each relayout keeps the row-major position. -/
theorem anchor_read (y : S16384x1.Idx → EReal) (k : Fin 64) :
    shapeCast S1x64 (shapeCast S64 (extractStridedSlice S64x1 ![0, 0] y slices_S16384x1_S64x1_0_0)
        shapeCasts_S64x1_S64) shapeCasts_S64_S1x64 (ix2 0 k)
      = y (ix2 (Cert.AnchorMix.anchorRow k) 0) := by
  refine (shapeCast_apply _ shapeCasts_S64_S1x64 (ix2 0 k) (ix1 k) ?_).trans ?_
  · rw [Shape.rowMajor_val_one, Shape.rowMajor_val_two]
    show k.val = 0 * 64 + k.val
    omega
  refine (shapeCast_apply _ shapeCasts_S64x1_S64 (ix1 k) (ix2 k 0) ?_).trans ?_
  · rw [Shape.rowMajor_val_two, Shape.rowMajor_val_one]
    show k.val * 1 + 0 = k.val
    omega
  exact extractStridedSlice_apply ![0, 0] y slices_S16384x1_S64x1_0_0 (ix2 k 0) (ix2 (Cert.AnchorMix.anchorRow k) 0)
    (fun a => match a with
      | ⟨0, _⟩ => by show k.val = 0 + k.val; omega
      | ⟨1, _⟩ => by show (0 : ℕ) = 0 + 0; omega)

/-- THE ANCHORS' DEGREES the second region reads are the degree column's first 64 entries. -/
theorem glue_anchor (W : Valuation τ sig (Elt Ideal)) (k : Fin 64) :
    (after2 W (Proc.devRef .tc main_v6) : S1x64.Idx → EReal) (ix2 0 k)
      = (W (Proc.devRef .tc main_v0) : S16384x1.Idx → EReal) (ix2 (Cert.AnchorMix.anchorRow k) 0) := by
  rw [v6_term]
  exact anchor_read _ k

end Cert.KernelIdeal.Glue

end
-- ==== Proof.KernelMix.lean ====
/-
  The kernel's result buffer after the whole run, as the specification's function of the two argument arrays.

  The second region's array is, row by row, the mix of the embeddings it finds under the softmax weights of the degree
  it finds, against the anchors' row and the scale it finds (`mix_array`). What it finds is what the host operations
  between the regions made of the first region's array: the scale of the degree column, its first 64 entries as a row,
  the degree column itself and the embeddings unchanged (`glue_…`). And the first region's array is the degree column
  of the matrix (`deg_array`), the matrix and the embeddings being the launch's.
-/
import proofs.«128045_j62612033241328_1_alg».proof.Proof.Gen.KernelIdeal.Launch
import proofs.«128045_j62612033241328_1_alg».proof.Proof.Gen.KernelIdeal.Skeleton
import proofs.«128045_j62612033241328_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«128045_j62612033241328_1_alg».proof.Proof.Whole
import proofs.«128045_j62612033241328_1_alg».proof.Proof.DegArray
import proofs.«128045_j62612033241328_1_alg».proof.Proof.MixValue
import proofs.«128045_j62612033241328_1_alg».proof.Proof.HostGlue
import proofs.«128045_j62612033241328_1_alg».proof.Proof.AnchorMix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx Cert.KernelIdeal.Glue

variable (m : (ℓ : Loc nD τ sig) → Buf (Elt Ideal) ℓ)

/-- The first region leaves the degree column of the launch's matrix in its output array. -/
theorem degree_column (c : Dev nD) :
    (W1 (F := Ideal) m c (Proc.devRef .tc main_v0) : S16384x1.Idx → EReal)
      = Cert.AnchorMix.degCol (m ((c : Thread nD τ).loc main_arg0)) :=
  (W1_arr m c 1).trans (deg_array (V0r m) c)

/-- The embeddings reach the second region as launched. -/
theorem embeddings_kept (c : Dev nD) :
    W1 (F := Ideal) m c (Proc.devRef .tc main_arg1) = m ((c : Thread nD τ).loc main_arg1) :=
  W1_of_ne m c main_arg1 (by decide)

/-- THE RESULT: the result buffer ends at the specification's result of the launch's matrix and embeddings. -/
theorem result_array (c : Dev nD) :
    (W4 (F := Ideal) m c (Proc.devRef .tc main_v7) : S16384x128.Idx → EReal)
      = Cert.AnchorMix.result (Cert.AnchorMix.degCol (m ((c : Thread nD τ).loc main_arg0))) (m ((c : Thread nD τ).loc main_arg1)) := by
  refine (W4_arr m c 4).trans ((mix_array (V3r m) c).trans ?_)
  funext i
  unfold Cert.AnchorMix.result
  have hs : (V3r m c main_v3 : S1x1.Idx → EReal) (ix2 0 0) = Cert.AnchorMix.scale (W1 m c (Proc.devRef .tc main_v0)) ix0 :=
    glue_scale (W1 m c)
  have ha : ∀ k : Fin 64, (V3r m c main_v6 : S1x64.Idx → EReal) (ix2 0 k)
      = (W1 m c (Proc.devRef .tc main_v0) : S16384x1.Idx → EReal) (ix2 (Cert.AnchorMix.anchorRow k) 0) := fun k =>
    glue_anchor (W1 m c) k
  have hd : (V3r m c main_v0 : S16384x1.Idx → EReal) = W1 m c (Proc.devRef .tc main_v0) := glue_deg (W1 m c)
  have he : (V3r m c main_arg1 : S64x128.Idx → EReal) = m ((c : Thread nD τ).loc main_arg1) :=
    (glue_emb (W1 m c)).trans (embeddings_kept m c)
  rw [hs, hd, he, funext ha, degree_column m c]

end Cert.KernelIdeal.Hand

end
-- ==== Proof.RefMix.lean ====
/-
  The reference is the specification. The reference computes, one host operation at a time: the degree column of the
  adjacency matrix (each row's sum, kept as a column); the scale (the column's Euclidean norm plus ε); the similarity
  of every row to the first 64 rows (the anchors), degree times degree over the scale; the softmax of each row of
  similarities (maximum, exponentials, their sum, the quotient); and the product of the weights with the embeddings.
  Read at one index, each stage is the corresponding term of AnchorMix, over the same degree column.
-/
import proofs.«128045_j62612033241328_1_alg».proof.Proof.Gen.ReferenceIdeal.Read
import proofs.«128045_j62612033241328_1_alg».proof.Proof.AnchorMix
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Cert.ReferenceIdeal.Gen Idealize.ShloMosaic Idealize.ShloMosaic.ValueIdx
open Cert.AnchorMix

/-! ## The degree column and the scale -/

/-- The first two stages (the row sums from zero, kept as a column) are the degree column. -/
theorem v1_degCol (x0 : FVec Ideal S16384x16384 .f32) :
    val_main_v1 (F := Ideal) x0 = Cert.AnchorMix.degCol x0 := by
  funext i
  rw [val_main_v1_apply, val_main_v0_apply, val_main_cst_apply]
  show Ideal.ofBits .f32 0x00000000#32 + _ = _
  rw [Ideal.ofBits_zero_f32, zero_add]
  unfold Cert.AnchorMix.degCol
  refine Finset.sum_congr rfl fun k _ => congrArg x0 ?_
  funext a
  match a with
  | ⟨0, _⟩ => rfl
  | ⟨1, _⟩ => rfl

/-- The scale stages apply to the degree column exactly the host operations the specification's scale is made of. -/
theorem v3_scale (x0 : FVec Ideal S16384x16384 .f32) :
    val_main_v3 (F := Ideal) x0 = Cert.AnchorMix.scale (val_main_v1 (F := Ideal) x0) := rfl

/-! ## The numbers the softmax is built from, read off the degree column -/

/-- The scale as a number. -/
abbrev nOf (dcol : FVec Ideal SCol .f32) : EReal := scale dcol ix0
/-- Row r's degree. -/
abbrev dOf (dcol : FVec Ideal SCol .f32) (r : Fin 16384) : EReal := dcol (ix2 r 0)
/-- The 64 anchors' degrees. -/
abbrev aOf (dcol : FVec Ideal SCol .f32) : Fin 64 → EReal := fun k => dcol (ix2 (anchorRow k) 0)

/-! ## The similarities -/

/-- The similarity stage at (row r, anchor k): the row's degree (the column broadcast along the anchors) times the
    anchor's degree (the column's first 64 entries, laid out as a row and broadcast along the rows), over the scale. -/
theorem v11_at (x0 : FVec Ideal S16384x16384 .f32) (r : Fin 16384) (k : Fin 64) :
    val_main_v11 (F := Ideal) x0 (ix2 r k)
      = sim (nOf (val_main_v1 (F := Ideal) x0)) (dOf (val_main_v1 (F := Ideal) x0) r) (aOf (val_main_v1 (F := Ideal) x0) k) := by
  rw [val_main_v11_apply, val_main_v9_apply, val_main_v10_apply, val_main_v7_apply, val_main_v8_apply,
    val_main_v6_apply, val_main_v5_apply, val_main_v4_apply, v3_scale]
  generalize val_main_v1 (F := Ideal) x0 = dcol
  have e7 : idx_main_v7 (ix2 r k) = ix2 r 0 := by
    funext a
    match a with
    | ⟨0, _⟩ => rfl
    | ⟨1, _⟩ => rfl
  have e4 : idx_main_v4 (idx_main_v5 (idx_main_v6 (idx_main_v8 (ix2 r k)))) = ix2 (anchorRow k) 0 := by
    funext a
    refine Fin.ext ?_
    match a with
    | ⟨0, _⟩ => exact Nat.div_one _
    | ⟨1, _⟩ => rfl
  have e10 : idx_main_v10 (ix2 r k) = ix0 := rfl
  rw [e7, e4, e10]
  rfl

/-! ## The row maximum -/

/-- The anchors' axis of the similarity matrix is reduced away, leaving the rows. -/
theorem reduces_anchors : S16384x64.Reduces [1] S16384 := by decide

/-- A maximum-reduce of a 16384 × 64 matrix along the anchors, from -∞, at row r: the maximum is commutative and
    associative, so the reduce is the fold over the indices that drop to r, and those are (r, k) for the 64 anchors k. -/
theorem max_reduce_at (y : FVec Ideal S16384x64 .f32) (r : Fin 16384) :
    Host.reduce (FloatOps.maximumf (F := Ideal) (φ := .f32)) y (val_main_cst_1 (F := Ideal))
        reducesTo_S16384x64_S16384_d1 h_S_ (ix1 r)
      = (Finset.univ : Finset (Fin 64)).fold max (Ideal.ofBits .f32 0xFF800000#32) (fun k => y (ix2 r k)) := by
  have h := Host.reduce_eq_fold_single (α := Ideal .f32) (s := S16384x64) (t := S16384) (a := 1) (u := S_)
    (FloatOps.maximumf (F := Ideal) (φ := .f32)) y (val_main_cst_1 (F := Ideal)) reducesTo_S16384x64_S16384_d1
    reduces_anchors h_S_ (ix1 r)
  refine h.trans ?_
  have e : (y ∘ reduces_anchors.lift (ix1 r)) = fun k : Fin 64 => y (ix2 r k) := by
    funext k
    exact congrArg y (funext fun a => Fin.ext (by match a with | ⟨0, _⟩ => rfl | ⟨1, _⟩ => rfl))
  rw [e]
  rfl

/-- The maximum-reduce stage at row r: the fold of max, from -∞, over the 64 anchors of the similarity at (r, k). -/
theorem v12_at (x0 : FVec Ideal S16384x16384 .f32) (r : Fin 16384) :
    val_main_v12 (F := Ideal) x0 (ix1 r)
      = (Finset.univ : Finset (Fin 64)).fold max (Ideal.ofBits .f32 0xFF800000#32)
          (fun k => val_main_v11 (F := Ideal) x0 (ix2 r k)) := by
  unfold val_main_v12
  exact max_reduce_at (val_main_v11 (F := Ideal) x0) r

/-- The row maximum (the reduce, then once more against -∞) at row r is the specification's. -/
theorem v14_at (x0 : FVec Ideal S16384x16384 .f32) (r : Fin 16384) :
    val_main_v14 (F := Ideal) x0 (ix1 r)
      = rowMax (nOf (val_main_v1 (F := Ideal) x0)) (dOf (val_main_v1 (F := Ideal) x0) r) (aOf (val_main_v1 (F := Ideal) x0)) := by
  rw [val_main_v14_apply, val_main_v13_apply, val_main_cst_2_apply, v12_at, funext (v11_at x0 r)]
  rfl

/-! ## The exponentials, their sum, the weights -/

/-- The exponential stage at (r, k): the similarity less the row's maximum (broadcast back along the anchors),
    exponentiated. -/
theorem v18_at (x0 : FVec Ideal S16384x16384 .f32) (r : Fin 16384) (k : Fin 64) :
    val_main_v18 (F := Ideal) x0 (ix2 r k)
      = wexp (nOf (val_main_v1 (F := Ideal) x0)) (dOf (val_main_v1 (F := Ideal) x0) r) (aOf (val_main_v1 (F := Ideal) x0)) k := by
  rw [val_main_v18_apply, val_main_v17_apply, val_main_v16_apply, val_main_v15_apply]
  have e : idx_main_v15 (idx_main_v16 (ix2 r k)) = ix1 r := by
    funext a
    match a with
    | ⟨0, _⟩ => rfl
  rw [e, v14_at, v11_at]
  generalize nOf (val_main_v1 (F := Ideal) x0) = n
  generalize dOf (val_main_v1 (F := Ideal) x0) r = d
  generalize aOf (val_main_v1 (F := Ideal) x0) = a
  rw [Ideal.hostUnary_exp_def, Ideal.subf_def]
  rfl

/-- The sum stage at row r: from zero, the sum over the anchors of the exponentials. -/
theorem v19_at (x0 : FVec Ideal S16384x16384 .f32) (r : Fin 16384) :
    val_main_v19 (F := Ideal) x0 (ix1 r)
      = wsum (nOf (val_main_v1 (F := Ideal) x0)) (dOf (val_main_v1 (F := Ideal) x0) r) (aOf (val_main_v1 (F := Ideal) x0)) := by
  rw [val_main_v19_apply, val_main_cst_3_apply]
  show Ideal.ofBits .f32 0x00000000#32 + _ = _
  rw [Ideal.ofBits_zero_f32, zero_add]
  unfold wsum
  refine Finset.sum_congr rfl fun k _ => ?_
  have e : idx_main_v19 (ix1 r) k = ix2 r k := by
    funext a
    match a with
    | ⟨0, _⟩ => rfl
    | ⟨1, _⟩ => rfl
  rw [e, v18_at]

/-- The weight stage at (r, k): the exponential over the row's sum (broadcast back along the anchors). -/
theorem v22_at (x0 : FVec Ideal S16384x16384 .f32) (r : Fin 16384) (k : Fin 64) :
    val_main_v22 (F := Ideal) x0 (ix2 r k)
      = weight (nOf (val_main_v1 (F := Ideal) x0)) (dOf (val_main_v1 (F := Ideal) x0) r) (aOf (val_main_v1 (F := Ideal) x0)) k := by
  rw [val_main_v22_apply, val_main_v21_apply, val_main_v20_apply]
  have e : idx_main_v20 (idx_main_v21 (ix2 r k)) = ix1 r := by
    funext a
    match a with
    | ⟨0, _⟩ => rfl
  rw [e, v19_at, v18_at]
  generalize nOf (val_main_v1 (F := Ideal) x0) = n
  generalize dOf (val_main_v1 (F := Ideal) x0) r = d
  generalize aOf (val_main_v1 (F := Ideal) x0) = a
  rw [Ideal.hostDivf_def]
  rfl

/-! ## The result -/

/-- The last stage, the product of the weights with the embeddings, at (row, feature): the specification's mix. -/
theorem v23_result (x0 : FVec Ideal S16384x16384 .f32) (x1 : FVec Ideal S64x128 .f32) :
    val_main_v23 (F := Ideal) x0 x1 = Cert.AnchorMix.result (val_main_v1 (F := Ideal) x0) x1 := by
  funext i
  obtain ⟨r, h, rfl⟩ : ∃ (r : Fin 16384) (h : Fin 128), i = ix2 r h := ⟨i 0, i 1, eq_ix2 i⟩
  rw [val_main_v23_apply]
  unfold Cert.AnchorMix.result Cert.AnchorMix.mix
  refine Finset.sum_congr rfl fun k _ => ?_
  have el : lidx_main_v23 (ix2 r h) k = ix2 r k := by
    funext a
    match a with
    | ⟨0, _⟩ => rfl
    | ⟨1, _⟩ => rfl
  have er : ridx_main_v23 (ix2 r h) k = ix2 k h := by
    funext a
    match a with
    | ⟨0, _⟩ => rfl
    | ⟨1, _⟩ => rfl
  rw [el, er, v22_at]

end Cert.ReferenceIdeal.RefValue

end
-- ==== Proof.lean ====
/-
  The certificate's claims.

  Both kernel programs (the word-level one and its idealization, the same text read at two float instances) run two
  kernel regions around ten host operations; their frames are the whole run's post read at the two argument arrays.
  The reference is a line of host operations; its frame is its run with the result dropped. The ideal pass rewrote
  nothing, so there is nothing to preserve. At the ideal instance the kernel's result buffer ends at the
  specification's result of the degree column of the matrix and of the embeddings — row sums accumulated over eight
  column blocks, the norm plus ε, the softmax of degree times degree over the scale, the mix of the embeddings —,
  and the reference's result is the same function of the same arrays, read one host operation at a time.
-/
import proofs.«128045_j62612033241328_1_alg».proof.Defs
import proofs.«128045_j62612033241328_1_alg».proof.Proof.Gen.Kernel
import proofs.«128045_j62612033241328_1_alg».proof.Proof.Gen.KernelIdeal
import proofs.«128045_j62612033241328_1_alg».proof.Proof.Gen.ReferenceIdeal
import proofs.«128045_j62612033241328_1_alg».proof.Proof.Gen.Pre_finite_inputs
import proofs.«128045_j62612033241328_1_alg».proof.Proof.Gen.ReferenceIdeal.Run
import proofs.«128045_j62612033241328_1_alg».proof.Proof.Gen.ReferenceIdeal.Read
import proofs.«128045_j62612033241328_1_alg».proof.Proof.WordWhole
import proofs.«128045_j62612033241328_1_alg».proof.Proof.Whole
import proofs.«128045_j62612033241328_1_alg».proof.Proof.KernelMix
import proofs.«128045_j62612033241328_1_alg».proof.Proof.RefMix
import Idealize.ShloMosaic.Adequacy
import Idealize.ShloMosaic.Init

noncomputable section

namespace Cert.Proof

open Idealize.ShloMosaic Idealize.ShloMosaic.TcCoe Idealize.SL.Sem

theorem frame_word : @Cert.frame_Kernel Cert.Kernel.Gen.facts Cert.Pre_finite_inputs.Gen.facts := fun m ρ _ =>
  Cert.Kernel.Hand.frame m ρ

theorem frame_ideal : @Cert.frame_KernelIdeal Cert.KernelIdeal.Gen.facts Cert.Pre_finite_inputs.Gen.facts := fun m ρ _ =>
  Cert.KernelIdeal.Hand.frame m ρ

theorem frame_reference : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both programs end with the specification's result of the degree column of the matrix and
    of the embeddings, from memories that agree on the two arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.AnchorMix.result (Cert.AnchorMix.degCol (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Hand.mem_uc Cert.KernelIdeal.main_v7 (by decide))).trans (Cert.KernelIdeal.Hand.result_array m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
      (Cert.KernelIdeal.Hand.whole_run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.v23_result, Cert.ReferenceIdeal.RefValue.v1_degCol,
      (hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
